-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel

variable [Facts]

def fn {F : FTy → Type} [FloatOps F] (main_arg0 : FVec F S2000000x1 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  main_v3
-- ==== Kernel.lean ====
abbrev S2000000x1 : Shape := ⟨2, ![2000000, 1]⟩
abbrev S1x2048 : Shape := ⟨2, ![1, 2048]⟩
abbrev S2000000 : Shape := ⟨1, ![2000000]⟩
abbrev S15625x128 : Shape := ⟨2, ![15625, 128]⟩
abbrev S15625x2048 : Shape := ⟨2, ![15625, 2048]⟩
abbrev S800x128 : Shape := ⟨2, ![800, 128]⟩
abbrev S800x2048 : Shape := ⟨2, ![800, 2048]⟩
abbrev S800x128x1 : Shape := ⟨3, ![800, 128, 1]⟩
abbrev S800x128x16 : Shape := ⟨3, ![800, 128, 16]⟩
abbrev S2000000x4x4 : Shape := ⟨3, ![2000000, 4, 4]⟩

abbrev nBuf : Space → Nat
  | .hbm => 8
  | .vmem => 7
  | .smem => 0
  | _ => 0

abbrev bufTy : (tb : Table) → Fin (tcTables nBuf tb) → BufTy
  | .hbm, ⟨0, _⟩ => ⟨S2000000x1, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2000000, .f32⟩
  | .hbm, ⟨5, _⟩ => ⟨S15625x128, .f32⟩
  | .hbm, ⟨6, _⟩ => ⟨S15625x2048, .f32⟩
  | .hbm, ⟨7, _⟩ => ⟨S2000000x4x4, .f32⟩
  | .local _ .vmem, ⟨0, _⟩ => ⟨S800x128, .f32⟩
  | .local _ .vmem, ⟨1, _⟩ => ⟨S800x128, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S800x2048, .f32⟩
  | .local _ .vmem, ⟨6, _⟩ => ⟨S800x2048, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S800x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2000000x1_S2000000 : S2000000x1.ShapeCasts S2000000
  shapeCasts_S2000000_S15625x128 : S2000000.ShapeCasts S15625x128
  inb_S800x128_S800x128_0_0 : ∀ a, (![0, 0] : Fin 2 → Nat) a + S800x128.size a ≤ S800x128.size a
  h_S800x128 : 0 < S800x128.numel
  shapeCasts_S800x128_S800x128 : S800x128.ShapeCasts S800x128
  shapeCasts_S800x128_S800x128x1 : S800x128.ShapeCasts S800x128x1
  shapeCasts_S800x128x1_S800x128x1 : S800x128x1.ShapeCasts S800x128x1
  broadcasts_S800x128x1_S800x128x16 : S800x128x1.Broadcasts S800x128x16
  shapeCasts_S800x128x16_S800x2048 : S800x128x16.ShapeCasts S800x2048
  inb_S1x2048_S1x2048_0_0 : ∀ a, (![0, 0] : Fin 2 → Nat) a + S1x2048.size a ≤ S1x2048.size a
  h_S1x2048 : 0 < S1x2048.numel
  broadcasts_S1x2048_S800x2048 : S1x2048.Broadcasts S800x2048
  inb_S800x2048_S800x2048_0_0 : ∀ a, (![0, 0] : Fin 2 → Nat) a + S800x2048.size a ≤ S800x2048.size a
  h_S800x2048 : 0 < S800x2048.numel
  shapeCasts_S15625x2048_S2000000x4x4 : S15625x2048.ShapeCasts S2000000x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S800x128.size a < S15625x128.size a
  hwx0_0 : ∀ i : grid0.Coords, EltTy.bits .f32 = 32 ∨ (Rect.unit (s := S15625x128) (fun a => cc0_transform_0 i a * S800x128.size a) (fun a => (Pipeline.Clip.of (cc0_transform_0 i a) (S800x128.size a) (S15625x128.size a)).extent (S800x128.size a)) fun a => Pipeline.Clip.inb (Pipeline.Clip.ok_of (hstart0_0 i a))).WholeWords (EltTy.packing .f32)
  hwxs0_0 : ∀ i : grid0.Coords, EltTy.bits .f32 = 32 ∨ (Rect.unit (s := S800x128) (fun _ => 0) (fun a => (Pipeline.Clip.of (cc0_transform_0 i a) (S800x128.size a) (S15625x128.size a)).extent (S800x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S800x2048.size a < S15625x2048.size a
  hwx0_4 : ∀ i : grid0.Coords, EltTy.bits .f32 = 32 ∨ (Rect.unit (s := S15625x2048) (fun a => cc0_transform_4 i a * S800x2048.size a) (fun a => (Pipeline.Clip.of (cc0_transform_4 i a) (S800x2048.size a) (S15625x2048.size a)).extent (S800x2048.size a)) fun a => Pipeline.Clip.inb (Pipeline.Clip.ok_of (hstart0_4 i a))).WholeWords (EltTy.packing .f32)
  hwxs0_4 : ∀ i : grid0.Coords, EltTy.bits .f32 = 32 ∨ (Rect.unit (s := S800x2048) (fun _ => 0) (fun a => (Pipeline.Clip.of (cc0_transform_4 i a) (S800x2048.size a) (S15625x2048.size a)).extent (S800x2048.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_v1) S800x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_cst) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v2) S800x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S4x4 : Shape := ⟨2, ![4, 4]⟩
abbrev S2000000 : Shape := ⟨1, ![2000000]⟩
abbrev S2000000x1x1 : Shape := ⟨3, ![2000000, 1, 1]⟩
abbrev S1x4x4 : Shape := ⟨3, ![1, 4, 4]⟩
abbrev S2000000x4x4 : Shape := ⟨3, ![2000000, 4, 4]⟩

abbrev nBuf : Space → Nat
  | .hbm => 24
  | .vmem => 0
  | .smem => 0
  | _ => 0

abbrev bufTy : (tb : Table) → Fin (tcTables nBuf tb) → BufTy
  | .hbm, ⟨0, _⟩ => ⟨S2000000x1, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S2000000x1, .f32⟩
  | .hbm, ⟨6, _⟩ => ⟨S2000000, .f32⟩
  | .hbm, ⟨7, _⟩ => ⟨S2000000x1x1, .f32⟩
  | .hbm, ⟨8, _⟩ => ⟨S2000000x1, .f32⟩
  | .hbm, ⟨9, _⟩ => ⟨S2000000, .f32⟩
  | .hbm, ⟨10, _⟩ => ⟨S2000000x1x1, .f32⟩
  | .hbm, ⟨11, _⟩ => ⟨S1x4x4, .f32⟩
  | .hbm, ⟨12, _⟩ => ⟨S2000000x4x4, .f32⟩
  | .hbm, ⟨13, _⟩ => ⟨S2000000x4x4, .f32⟩
  | .hbm, ⟨14, _⟩ => ⟨S2000000x4x4, .f32⟩
  | .hbm, ⟨15, _⟩ => ⟨S1x4x4, .f32⟩
  | .hbm, ⟨16, _⟩ => ⟨S2000000x4x4, .f32⟩
  | .hbm, ⟨17, _⟩ => ⟨S2000000x4x4, .f32⟩
  | .hbm, ⟨18, _⟩ => ⟨S2000000x4x4, .f32⟩
  | .hbm, ⟨19, _⟩ => ⟨S2000000x4x4, .f32⟩
  | .hbm, ⟨20, _⟩ => ⟨S1x4x4, .f32⟩
  | .hbm, ⟨21, _⟩ => ⟨S2000000x4x4, .f32⟩
  | .hbm, ⟨22, _⟩ => ⟨S2000000x4x4, .f32⟩
  | .hbm, ⟨23, _⟩ => ⟨S2000000x4x4, .f32⟩
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  shapeCasts_S2000000x1_S2000000 : S2000000x1.ShapeCasts S2000000
  bcast_S2000000_S2000000x1x1_0 : S2000000.BroadcastsInDim S2000000x1x1 (![0] : Fin 1 → Fin S2000000x1x1.rank)
  bcast_S4x4_S1x4x4_1_2 : S4x4.BroadcastsInDim S1x4x4 (![1, 2] : Fin 2 → Fin S1x4x4.rank)
  bcast_S1x4x4_S2000000x4x4_0_1_2 : S1x4x4.BroadcastsInDim S2000000x4x4 (![0, 1, 2] : Fin 3 → Fin S2000000x4x4.rank)
  bcast_S2000000x1x1_S2000000x4x4_0_1_2 : S2000000x1x1.BroadcastsInDim S2000000x4x4 (![0, 1, 2] : Fin 3 → Fin S2000000x4x4.rank)
  dot_S2000000x4x4_S4x4_S2000000x4x4_2_0_01_1_n_n_wf : DotDims.WF S2000000x4x4 S4x4 S2000000x4x4 [2] [0] [0, 1] [1] [] []

variable [Facts₀]

def dot_S2000000x4x4_S4x4_S2000000x4x4_2_0_01_1_n_n : DotDims S2000000x4x4 S4x4 S2000000x4x4 where
  lhsContracting := [2]
  rhsContracting := [0]
  lhsNonContracting := [0, 1]
  rhsNonContracting := [1]
  lhsBatch := []
  rhsBatch := []
  wf := dot_S2000000x4x4_S4x4_S2000000x4x4_2_0_01_1_n_n_wf

class Facts : Prop extends Facts₀ where

variable [Facts]
-- ==== Proof.DataBits.lean ====
/-
  The proof data of the one pipeline: what each window's staging buffer holds after the body at each grid point.

  The grid has twenty points; point `t` stages rows `800·t … 800·t + 799` of the [15625, 128] array of angles and of the
  [15625, 2048] result. The last block overhangs both arrays (15625 = 19·800 + 425): its fetch brings only 425 rows and its
  write-back writes only 425, so of the angle buffer only the rows inside the array are named. `xfull` is the angle
  block filled out below the array's end with the zero word — a choice nothing reads: the stored value at a row depends
  on the angles of that row alone, and rows past the array's end are never written back. The three constant rows
  `U`, `V`, `W` are staged whole, once. After the body the result's buffer holds the body's one stored value,
  `cos x · U + sin x · V + W` lane by lane, of those four blocks.
-/
import proofs.«151942_j3032246911418_2_alg».proof.Proof.Gen.Kernel.Frame
import proofs.«151942_j3032246911418_2_alg».proof.Proof.Gen.Kernel.Skeleton

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The angle block at point `t` as the fetch reads it: its rows inside the array (800 of them, 425 at the last point). -/
def xblk (c : Dev nD) (t : Fin cfg0.N) : (win0_0.xblock (grid0.coords t)).Idx → Elt F .f32 :=
  iblk m c 0 t

/-- The same filled out to the whole 800-row buffer with the zero word below the array's end. -/
def xfull (c : Dev nD) (t : Fin cfg0.N) : S800x128.Idx → Elt F .f32 :=
  win0_0.fill (grid0.coords t) (fun _ => Scalar.ofBits .f32 0#32) (xblk m c t)

/-- What the body stores: its one payload, of the angle buffer's contents and the three constant rows. -/
def stored (x0 : Vec F S800x128 .f32) (u v w : Vec F S1x2048 .f32) : Vec F S800x2048 .f32 :=
  k0_pay1 x0 u v w

/-- The proof data: the arrays as the region finds them; after the body at point `t` the angle buffer at `xfull`, the
    constant rows' buffers at their (whole) blocks, the result's buffer at `stored` of those; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => stored (xfull m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = stored (xfull m c t) (iblk m c 1 t) (iblk m c 2 t) (iblk m c 3 t) := by dsimp only [dats]

/-- The rows of `xfull` inside the array are the angle block. -/
theorem cut_xfull (c : Dev nD) (t : Fin cfg0.N) : win0_0.cut (grid0.coords t) (xfull m c t) = xblk m c t :=
  win0_0.cut_fill _ _ _

end Cert.Kernel.Hand

end
-- ==== Proof.PayloadBits.lean ====
/-
  The body's one stored value, read at an index.

  The body takes the 800×128 block of angles, forms `cos` and `sin` of it, repeats each entry over sixteen consecutive
  lanes (a trailing unit axis, a broadcast to sixteen, a flattening of the last two axes: lane `16·l + k` of row `r` holds
  the entry at `(r, l)`), multiplies by the constant rows `U` and `V` broadcast down the 800 rows, and adds `W`. So the stored
  value at row `r`, lane `16·l + k` is `cos (x r l) · U (16·l + k) + sin (x r l) · V (16·l + k) + W (16·l + k)`, at any float
  instance; in particular a row of the stored value depends on the same row of the angle block and on no other.
-/
import proofs.«151942_j3032246911418_2_alg».proof.Proof.Gen.Kernel.Skeleton
import Idealize.ShloMosaic.Lib.ValueIdx
import Idealize.ShloMosaic.Lib.Pipeline.Value

noncomputable section

namespace Cert.Kernel.Hand

open Cert.Kernel Cert.Kernel.Gen
open Idealize.ShloMosaic Idealize.ShloMosaic.ValueIdx

variable {F : FTy → Type} [FloatOps F]

/-- Lane `16·l + k` of a 2048-lane row. -/
abbrev lane (l : Fin 128) (k : Fin 16) : Fin 2048 := ⟨16 * l.val + k.val, by omega⟩

/-! ## The layout operations at an index

Two arrangements occur. An 800×128 block is repeated sixteen times along the lanes: a trailing unit axis is added
(position `r·128 + l` in both shapes), the unit axis is broadcast to sixteen (the entry at `(r, l, k)` is the entry at
`(r, l, 0)`), and the last two axes are flattened (position `(r·128 + l)·16 + k = r·2048 + (16·l + k)`). A 1×2048 row is
broadcast down the 800 rows (the entry at `(r, j)` is the entry at `(0, j)`). Neither looks at the entries' type. -/

/-- The sixteen-fold repetition: lane `16·l + k` of row `r` holds the block's entry at `(r, l)`. -/
theorem repeat16_apply {α : Type} (y : S800x128.Idx → α) (r : Fin 800) (l : Fin 128) (k : Fin 16) :
    shapeCast S800x2048
        (broadcastTo S800x128x16
          (shapeCast S800x128x1 (shapeCast S800x128x1 y shapeCasts_S800x128_S800x128x1) shapeCasts_S800x128x1_S800x128x1)
          broadcasts_S800x128x1_S800x128x16)
        shapeCasts_S800x128x16_S800x2048 (ix2 r (lane l k))
      = y (ix2 r l) := by
  -- flattening [800,128,16] → [800,2048]: (r, l, k) and (r, 16·l + k) sit at the same row-major position
  refine (shapeCast_apply _ _ (ix2 r (lane l k)) (ix3 r l k) ?_).trans ?_
  · rw [Shape.rowMajor_val_three, Shape.rowMajor_val_two]
    show (r.val * 128 + l.val) * 16 + k.val = r.val * 2048 + (16 * l.val + k.val)
    omega
  -- the broadcast along the unit axis forgets k
  refine (broadcastTo_apply _ _ (ix3 r l k) (ix3 r l (0 : Fin 1)) ?_).trans ?_
  · intro a
    match a with
    | ⟨0, _⟩ => rfl
    | ⟨1, _⟩ => rfl
    | ⟨2, _⟩ => rfl
  -- a cast to the same shape is the identity; adding the unit axis keeps the position r·128 + l
  rw [shapeCast_self]
  refine shapeCast_apply _ _ (ix3 r l (0 : Fin 1)) (ix2 r l) ?_
  rw [Shape.rowMajor_val_two, Shape.rowMajor_val_three]
  show r.val * 128 + l.val = (r.val * 128 + l.val) * 1 + 0
  omega

/-- A 1×2048 row broadcast down the 800 rows reads, at `(r, j)`, the row's entry at `j`. -/
theorem row_apply {α : Type} (u : S1x2048.Idx → α) (r : Fin 800) (j : Fin 2048) :
    broadcastTo S800x2048 u broadcasts_S1x2048_S800x2048 (ix2 r j) = u (ix2 (0 : Fin 1) j) := by
  refine broadcastTo_apply _ _ (ix2 r j) (ix2 (0 : Fin 1) j) ?_
  intro a
  match a with
  | ⟨0, _⟩ => rfl
  | ⟨1, _⟩ => rfl

/-! ## The pointwise operations at an index, at any float instance -/

theorem addf_at {s : Shape} {φ : FTy} (x y : FVec F s φ) (i : s.Idx) : addf x y i = FloatOps.addf (x i) (y i) := rfl
theorem mulf_at {s : Shape} {φ : FTy} (x y : FVec F s φ) (i : s.Idx) : mulf x y i = FloatOps.mulf (x i) (y i) := rfl
theorem cos_at {s : Shape} {φ : FTy} (x : FVec F s φ) (i : s.Idx) : cos x i = FloatOps.cos (x i) := rfl
theorem sin_at {s : Shape} {φ : FTy} (x : FVec F s φ) (i : s.Idx) : sin x i = FloatOps.sin (x i) := rfl

/-! ## The stored value -/

/-- The stored value at row `r`, lane `16·l + k`: `cos (x r l) · U + sin (x r l) · V + W` at that lane. -/
theorem k0_pay1_apply (x0 : Vec F S800x128 .f32) (u v w : Vec F S1x2048 .f32) (r : Fin 800) (l : Fin 128) (k : Fin 16) :
    k0_pay1 x0 u v w (ix2 r (lane l k))
      = FloatOps.addf (FloatOps.addf (FloatOps.mulf (FloatOps.cos (x0 (ix2 r l))) (u (ix2 (0 : Fin 1) (lane l k))))
            (FloatOps.mulf (FloatOps.sin (x0 (ix2 r l))) (v (ix2 (0 : Fin 1) (lane l k)))))
          (w (ix2 (0 : Fin 1) (lane l k))) := by
  unfold k0_pay1
  -- (cos-term + sin-term) + W, the outer sum first
  refine (addf_at _ _ _).trans ?_
  refine congrArg₂ FloatOps.addf ?_ (row_apply w r (lane l k))
  refine (addf_at _ _ _).trans ?_
  refine congrArg₂ FloatOps.addf ?_ ?_
  · -- the repeated cosine block times the row U
    refine (mulf_at _ _ _).trans ?_
    refine congrArg₂ FloatOps.mulf ?_ (row_apply u r (lane l k))
    refine (repeat16_apply _ r l k).trans ?_
    rw [shapeCast_self]
    rfl
  · -- the repeated sine block times the row V
    refine (mulf_at _ _ _).trans ?_
    refine congrArg₂ FloatOps.mulf ?_ (row_apply v r (lane l k))
    refine (repeat16_apply _ r l k).trans ?_
    rw [shapeCast_self]
    rfl

/-- A row of the stored value depends only on the same row of the angle block. -/
theorem k0_pay1_congr_row (x0 x0' : Vec F S800x128 .f32) (u v w : Vec F S1x2048 .f32) (r : Fin 800)
    (h : ∀ l : Fin 128, x0 (ix2 r l) = x0' (ix2 r l)) (j : Fin 2048) :
    k0_pay1 x0 u v w (ix2 r j) = k0_pay1 x0' u v w (ix2 r j) := by
  -- every lane is 16·(j / 16) + j % 16
  have hj : j = lane ⟨j.val / 16, by omega⟩ ⟨j.val % 16, by omega⟩ :=
    Fin.ext (by show j.val = 16 * (j.val / 16) + j.val % 16; omega)
  rw [hj, k0_pay1_apply, k0_pay1_apply, h]

end Cert.Kernel.Hand

end
-- ==== Proof.BodyBits.lean ====
/-
  The body's triple, the body obligation at every grid point, the run and the frame.

  The body reads its four input buffers whole, stores one value into the whole result buffer, and (before the store) reads
  the result buffer once without using what it read. So from any contents of the five buffers it ends with the four
  inputs unchanged and the result's buffer at the stored value of what the inputs held.

  At grid point `t` the angle buffer holds the angle block on the rows inside the array and words nothing names below
  (the last block overhangs the array by 375 rows). The stored value at a row depends on the angles of that row alone,
  so on the rows inside the array it is the stored value of the named block, which is all the obligation of a window whose
  blocks overhang asks: its write-back moves those rows and no others.
-/
import proofs.«151942_j3032246911418_2_alg».proof.Proof.DataBits
import proofs.«151942_j3032246911418_2_alg».proof.Proof.PayloadBits
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging memrefs, the four inputs' at contents `x0`, `u`, `v`, `w` and the result's at anything, runs to
    the continuation holding the inputs' as they were and the result's at the stored value of them. -/
theorem sound_kernel (c : Dev nD) (E : Set ℕ) (i : grid0.Coords)
    (arg1 : Memref sig .tc .vmem S800x128 .f32) (harg1 : arg1.IsWhole) (arg2 : Memref sig .tc .vmem S1x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S800x2048 .f32) (harg5 : arg5.IsWhole)
    (x0 : Vec F S800x128 .f32) (u v w : Vec F S1x2048 .f32) (K : PUnit → sProp 𝕄) :
    iprop(owns (c : Thread nD τ) arg1 fullShare x0 ∗ owns (c : Thread nD τ) arg2 fullShare u ∗ owns (c : Thread nD τ) arg3 fullShare v
        ∗ owns (c : Thread nD τ) arg4 fullShare w ∗ (∃ d, owns (c : Thread nD τ) arg5 fullShare d)
        ∗ (iprop(owns (c : Thread nD τ) arg1 fullShare x0 ∗ owns (c : Thread nD τ) arg2 fullShare u ∗ owns (c : Thread nD τ) arg3 fullShare v
            ∗ owns (c : Thread nD τ) arg4 fullShare w ∗ owns (c : Thread nD τ) arg5 fullShare (stored x0 u v w)) -∗ K ⟨⟩))
      ⊢ wp frame (wpE (defs₀ (F := F)) Variants.none c none) E (cc0__dht_kernel i arg1 harg1 arg2 harg2 arg3 harg3 arg4 harg4 arg5 harg5) K := by
  have hz : (![0, 0] : Fin 2 → Nat) = fun _ => 0 := funext fun a => by fin_cases a <;> rfl
  simp only [cc0__dht_kernel_eq_skeleton]; unfold cc0__dht_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz Facts₀.inb_S800x2048_S800x2048_0_0 y⟩),
    View.canon_unit_zero hz]
  simp only [View.readAt_eq_ld, View.ld_unit_zero (S := S800x128) hz, View.ld_unit_zero (S := S1x2048) hz]
  rfl

/-! ## What the body finds in each buffer -/

/-- The angle buffer, just fetched: the angle block on the rows inside the array, `d` below. -/
theorem before0_0 (c : Dev nD) (t : Fin cfg0.N) (d) :
    (dats m 0 c).before 0 t d = win0_0.fill (grid0.coords t) d (xblk m c t) := by
  rw [(dats m 0 c).before_fetched 0 t (fetch0_0 t) d]
  unfold Dat.fetched Dat.blockOf xblk iblk
  rw [A_eq]

/-- The constant rows' buffers hold their rows at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The result's buffer is written back at every point, so at every point it holds contents nothing names. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## Rows inside the array -/

/-- Two fillings of the angle buffer with one block agree at every entry the fetch moved. -/
theorem fill_agree (i : grid0.Coords) (d d' : S800x128.Idx → Elt F .f32) (g : (win0_0.xblock i).Idx → Elt F .f32)
    (j : S800x128.Idx) (hj : win0_0.moved i j = true) : win0_0.fill i d g j = win0_0.fill i d' g j := by
  unfold Window.fill; rw [dif_pos hj, dif_pos hj]

/-- The result's block and the angle block are cut at the same row: both arrays have 15625 rows in blocks of 800. -/
theorem xsize_rows (i : grid0.Coords) : win0_4.xsize i 0 = win0_0.xsize i 0 := rfl

/-- The angle block is never cut along its 128 lanes. -/
theorem xsize_lanes (i : grid0.Coords) : win0_0.xsize i 1 = 128 := rfl

/-- On the rows the write-back moves, the stored value does not depend on what the angle buffer holds below the
    array's end: a row of it is a function of the same row of angles. -/
theorem cut_stored (i : grid0.Coords) (d d' : S800x128.Idx → Elt F .f32) (g : (win0_0.xblock i).Idx → Elt F .f32)
    (u v w : Vec F S1x2048 .f32) :
    win0_4.cut i (stored (win0_0.fill i d g) u v w) = win0_4.cut i (stored (win0_0.fill i d' g) u v w) := by
  funext y
  have h0 : (y 0).val < win0_0.xsize i 0 := (y 0).isLt
  have h0' : (y 0).val < 800 := lt_of_lt_of_le h0 (win0_0.xsize_le i 0)
  have h1' : (y 1).val < 2048 := lt_of_lt_of_le (y 1).isLt (win0_4.xsize_le i 1)
  have e : win0_4.xinj i y = ix2 (⟨(y 0).val, h0'⟩ : Fin 800) (⟨(y 1).val, h1'⟩ : Fin 2048) := by
    funext a; match a with | ⟨0, _⟩ => rfl | ⟨1, _⟩ => rfl
  show stored (win0_0.fill i d g) u v w (win0_4.xinj i y) = stored (win0_0.fill i d' g) u v w (win0_4.xinj i y)
  rw [e]
  unfold stored
  refine k0_pay1_congr_row _ _ u v w _ (fun l => fill_agree i d d' g _ ?_) _
  refine (win0_0.moved_iff i _).mpr fun a => ?_
  match a with
  | ⟨0, _⟩ => exact h0
  | ⟨1, _⟩ => show l.val < win0_0.xsize i 1; rw [xsize_lanes]; exact l.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the angle buffer and the result's buffer, whose blocks may overhang, stated on the rows
    their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (xblk m c t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xfull m c t)))
    rw [cut_xfull]
    try iexact H0
  isplitl [H1]; · iexact H1
  isplitl [H2]; · iexact H2
  isplitl [H3]; · iexact H3
  · iexists stored (win0_0.fill (grid0.coords t) d0 (xblk m c t)) (iblk m c 1 t) (iblk m c 2 t) (iblk m c 3 t)
    change _ ⊢ owns (c : Thread nD τ) (st0_4 t) fullShare (win0_4.fill (grid0.coords t)
      (stored (win0_0.fill (grid0.coords t) d0 (xblk m c t)) (iblk m c 1 t) (iblk m c 2 t) (iblk m c 3 t))
      (win0_4.cut (grid0.coords t) (stored (xfull m c t) (iblk m c 1 t) (iblk m c 2 t) (iblk m c 3 t))))
    have hE := win0_4.fill_congr_cut (grid0.coords t) (cut_stored (F := F) (grid0.coords t) d0 (fun _ => Scalar.ofBits .f32 0#32) (xblk m c t)
      (iblk m c 1 t) (iblk m c 2 t) (iblk m c 3 t))
    iapply (Entails.of_eq (congrArg (fun Z => owns (c : Thread nD τ) (st0_4 t) fullShare Z) hE.symm))
    try iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what
    the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.DataIdeal.lean ====
/-
  The proof data of the one pipeline: what each window's staging buffer holds after the body at each grid point.

  The grid has twenty points; point `t` stages rows `800·t … 800·t + 799` of the [15625, 128] array of angles and of the
  [15625, 2048] result. The last block overhangs both arrays (15625 = 19·800 + 425): its fetch brings only 425 rows and its
  write-back writes only 425, so of the angle buffer only the rows inside the array are named. `xfull` is the angle
  block filled out below the array's end with the zero word — a choice nothing reads: the stored value at a row depends
  on the angles of that row alone, and rows past the array's end are never written back. The three constant rows
  `U`, `V`, `W` are staged whole, once. After the body the result's buffer holds the body's one stored value,
  `cos x · U + sin x · V + W` lane by lane, of those four blocks.
-/
import proofs.«151942_j3032246911418_2_alg».proof.Proof.Gen.KernelIdeal.Frame
import proofs.«151942_j3032246911418_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The angle block at point `t` as the fetch reads it: its rows inside the array (800 of them, 425 at the last point). -/
def xblk (c : Dev nD) (t : Fin cfg0.N) : (win0_0.xblock (grid0.coords t)).Idx → Elt F .f32 :=
  iblk m c 0 t

/-- The same filled out to the whole 800-row buffer with the zero word below the array's end. -/
def xfull (c : Dev nD) (t : Fin cfg0.N) : S800x128.Idx → Elt F .f32 :=
  win0_0.fill (grid0.coords t) (fun _ => Scalar.ofBits .f32 0#32) (xblk m c t)

/-- What the body stores: its one payload, of the angle buffer's contents and the three constant rows. -/
def stored (x0 : Vec F S800x128 .f32) (u v w : Vec F S1x2048 .f32) : Vec F S800x2048 .f32 :=
  k0_pay1 x0 u v w

/-- The proof data: the arrays as the region finds them; after the body at point `t` the angle buffer at `xfull`, the
    constant rows' buffers at their (whole) blocks, the result's buffer at `stored` of those; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => stored (xfull m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = stored (xfull m c t) (iblk m c 1 t) (iblk m c 2 t) (iblk m c 3 t) := by dsimp only [dats]

/-- The rows of `xfull` inside the array are the angle block. -/
theorem cut_xfull (c : Dev nD) (t : Fin cfg0.N) : win0_0.cut (grid0.coords t) (xfull m c t) = xblk m c t :=
  win0_0.cut_fill _ _ _

end Cert.KernelIdeal.Hand

end
-- ==== Proof.PayloadIdeal.lean ====
/-
  The body's one stored value, read at an index.

  The body takes the 800×128 block of angles, forms `cos` and `sin` of it, repeats each entry over sixteen consecutive
  lanes (a trailing unit axis, a broadcast to sixteen, a flattening of the last two axes: lane `16·l + k` of row `r` holds
  the entry at `(r, l)`), multiplies by the constant rows `U` and `V` broadcast down the 800 rows, and adds `W`. So the stored
  value at row `r`, lane `16·l + k` is `cos (x r l) · U (16·l + k) + sin (x r l) · V (16·l + k) + W (16·l + k)`, at any float
  instance; in particular a row of the stored value depends on the same row of the angle block and on no other.
-/
import proofs.«151942_j3032246911418_2_alg».proof.Proof.Gen.KernelIdeal.Skeleton
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type} [FloatOps F]

/-- Lane `16·l + k` of a 2048-lane row. -/
abbrev lane (l : Fin 128) (k : Fin 16) : Fin 2048 := ⟨16 * l.val + k.val, by omega⟩

/-! ## The layout operations at an index

Two arrangements occur. An 800×128 block is repeated sixteen times along the lanes: a trailing unit axis is added
(position `r·128 + l` in both shapes), the unit axis is broadcast to sixteen (the entry at `(r, l, k)` is the entry at
`(r, l, 0)`), and the last two axes are flattened (position `(r·128 + l)·16 + k = r·2048 + (16·l + k)`). A 1×2048 row is
broadcast down the 800 rows (the entry at `(r, j)` is the entry at `(0, j)`). Neither looks at the entries' type. -/

/-- The sixteen-fold repetition: lane `16·l + k` of row `r` holds the block's entry at `(r, l)`. -/
theorem repeat16_apply {α : Type} (y : S800x128.Idx → α) (r : Fin 800) (l : Fin 128) (k : Fin 16) :
    shapeCast S800x2048
        (broadcastTo S800x128x16
          (shapeCast S800x128x1 (shapeCast S800x128x1 y shapeCasts_S800x128_S800x128x1) shapeCasts_S800x128x1_S800x128x1)
          broadcasts_S800x128x1_S800x128x16)
        shapeCasts_S800x128x16_S800x2048 (ix2 r (lane l k))
      = y (ix2 r l) := by
  -- flattening [800,128,16] → [800,2048]: (r, l, k) and (r, 16·l + k) sit at the same row-major position
  refine (shapeCast_apply _ _ (ix2 r (lane l k)) (ix3 r l k) ?_).trans ?_
  · rw [Shape.rowMajor_val_three, Shape.rowMajor_val_two]
    show (r.val * 128 + l.val) * 16 + k.val = r.val * 2048 + (16 * l.val + k.val)
    omega
  -- the broadcast along the unit axis forgets k
  refine (broadcastTo_apply _ _ (ix3 r l k) (ix3 r l (0 : Fin 1)) ?_).trans ?_
  · intro a
    match a with
    | ⟨0, _⟩ => rfl
    | ⟨1, _⟩ => rfl
    | ⟨2, _⟩ => rfl
  -- a cast to the same shape is the identity; adding the unit axis keeps the position r·128 + l
  rw [shapeCast_self]
  refine shapeCast_apply _ _ (ix3 r l (0 : Fin 1)) (ix2 r l) ?_
  rw [Shape.rowMajor_val_two, Shape.rowMajor_val_three]
  show r.val * 128 + l.val = (r.val * 128 + l.val) * 1 + 0
  omega

/-- A 1×2048 row broadcast down the 800 rows reads, at `(r, j)`, the row's entry at `j`. -/
theorem row_apply {α : Type} (u : S1x2048.Idx → α) (r : Fin 800) (j : Fin 2048) :
    broadcastTo S800x2048 u broadcasts_S1x2048_S800x2048 (ix2 r j) = u (ix2 (0 : Fin 1) j) := by
  refine broadcastTo_apply _ _ (ix2 r j) (ix2 (0 : Fin 1) j) ?_
  intro a
  match a with
  | ⟨0, _⟩ => rfl
  | ⟨1, _⟩ => rfl

/-! ## The pointwise operations at an index, at any float instance -/

theorem addf_at {s : Shape} {φ : FTy} (x y : FVec F s φ) (i : s.Idx) : addf x y i = FloatOps.addf (x i) (y i) := rfl
theorem mulf_at {s : Shape} {φ : FTy} (x y : FVec F s φ) (i : s.Idx) : mulf x y i = FloatOps.mulf (x i) (y i) := rfl
theorem cos_at {s : Shape} {φ : FTy} (x : FVec F s φ) (i : s.Idx) : cos x i = FloatOps.cos (x i) := rfl
theorem sin_at {s : Shape} {φ : FTy} (x : FVec F s φ) (i : s.Idx) : sin x i = FloatOps.sin (x i) := rfl

/-! ## The stored value -/

/-- The stored value at row `r`, lane `16·l + k`: `cos (x r l) · U + sin (x r l) · V + W` at that lane. -/
theorem k0_pay1_apply (x0 : Vec F S800x128 .f32) (u v w : Vec F S1x2048 .f32) (r : Fin 800) (l : Fin 128) (k : Fin 16) :
    k0_pay1 x0 u v w (ix2 r (lane l k))
      = FloatOps.addf (FloatOps.addf (FloatOps.mulf (FloatOps.cos (x0 (ix2 r l))) (u (ix2 (0 : Fin 1) (lane l k))))
            (FloatOps.mulf (FloatOps.sin (x0 (ix2 r l))) (v (ix2 (0 : Fin 1) (lane l k)))))
          (w (ix2 (0 : Fin 1) (lane l k))) := by
  unfold k0_pay1
  -- (cos-term + sin-term) + W, the outer sum first
  refine (addf_at _ _ _).trans ?_
  refine congrArg₂ FloatOps.addf ?_ (row_apply w r (lane l k))
  refine (addf_at _ _ _).trans ?_
  refine congrArg₂ FloatOps.addf ?_ ?_
  · -- the repeated cosine block times the row U
    refine (mulf_at _ _ _).trans ?_
    refine congrArg₂ FloatOps.mulf ?_ (row_apply u r (lane l k))
    refine (repeat16_apply _ r l k).trans ?_
    rw [shapeCast_self]
    rfl
  · -- the repeated sine block times the row V
    refine (mulf_at _ _ _).trans ?_
    refine congrArg₂ FloatOps.mulf ?_ (row_apply v r (lane l k))
    refine (repeat16_apply _ r l k).trans ?_
    rw [shapeCast_self]
    rfl

/-- A row of the stored value depends only on the same row of the angle block. -/
theorem k0_pay1_congr_row (x0 x0' : Vec F S800x128 .f32) (u v w : Vec F S1x2048 .f32) (r : Fin 800)
    (h : ∀ l : Fin 128, x0 (ix2 r l) = x0' (ix2 r l)) (j : Fin 2048) :
    k0_pay1 x0 u v w (ix2 r j) = k0_pay1 x0' u v w (ix2 r j) := by
  -- every lane is 16·(j / 16) + j % 16
  have hj : j = lane ⟨j.val / 16, by omega⟩ ⟨j.val % 16, by omega⟩ :=
    Fin.ext (by show j.val = 16 * (j.val / 16) + j.val % 16; omega)
  rw [hj, k0_pay1_apply, k0_pay1_apply, h]

end Cert.KernelIdeal.Hand

end
-- ==== Proof.BodyIdeal.lean ====
/-
  The body's triple, the body obligation at every grid point, the run and the frame.

  The body reads its four input buffers whole, stores one value into the whole result buffer, and (before the store) reads
  the result buffer once without using what it read. So from any contents of the five buffers it ends with the four
  inputs unchanged and the result's buffer at the stored value of what the inputs held.

  At grid point `t` the angle buffer holds the angle block on the rows inside the array and words nothing names below
  (the last block overhangs the array by 375 rows). The stored value at a row depends on the angles of that row alone,
  so on the rows inside the array it is the stored value of the named block, which is all the obligation of a window whose
  blocks overhang asks: its write-back moves those rows and no others.
-/
import proofs.«151942_j3032246911418_2_alg».proof.Proof.DataIdeal
import proofs.«151942_j3032246911418_2_alg».proof.Proof.PayloadIdeal
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging memrefs, the four inputs' at contents `x0`, `u`, `v`, `w` and the result's at anything, runs to
    the continuation holding the inputs' as they were and the result's at the stored value of them. -/
theorem sound_kernel (c : Dev nD) (E : Set ℕ) (i : grid0.Coords)
    (arg1 : Memref sig .tc .vmem S800x128 .f32) (harg1 : arg1.IsWhole) (arg2 : Memref sig .tc .vmem S1x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S800x2048 .f32) (harg5 : arg5.IsWhole)
    (x0 : Vec F S800x128 .f32) (u v w : Vec F S1x2048 .f32) (K : PUnit → sProp 𝕄) :
    iprop(owns (c : Thread nD τ) arg1 fullShare x0 ∗ owns (c : Thread nD τ) arg2 fullShare u ∗ owns (c : Thread nD τ) arg3 fullShare v
        ∗ owns (c : Thread nD τ) arg4 fullShare w ∗ (∃ d, owns (c : Thread nD τ) arg5 fullShare d)
        ∗ (iprop(owns (c : Thread nD τ) arg1 fullShare x0 ∗ owns (c : Thread nD τ) arg2 fullShare u ∗ owns (c : Thread nD τ) arg3 fullShare v
            ∗ owns (c : Thread nD τ) arg4 fullShare w ∗ owns (c : Thread nD τ) arg5 fullShare (stored x0 u v w)) -∗ K ⟨⟩))
      ⊢ wp frame (wpE (defs₀ (F := F)) Variants.none c none) E (cc0__dht_kernel i arg1 harg1 arg2 harg2 arg3 harg3 arg4 harg4 arg5 harg5) K := by
  have hz : (![0, 0] : Fin 2 → Nat) = fun _ => 0 := funext fun a => by fin_cases a <;> rfl
  simp only [cc0__dht_kernel_eq_skeleton]; unfold cc0__dht_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz Facts₀.inb_S800x2048_S800x2048_0_0 y⟩),
    View.canon_unit_zero hz]
  simp only [View.readAt_eq_ld, View.ld_unit_zero (S := S800x128) hz, View.ld_unit_zero (S := S1x2048) hz]
  rfl

/-! ## What the body finds in each buffer -/

/-- The angle buffer, just fetched: the angle block on the rows inside the array, `d` below. -/
theorem before0_0 (c : Dev nD) (t : Fin cfg0.N) (d) :
    (dats m 0 c).before 0 t d = win0_0.fill (grid0.coords t) d (xblk m c t) := by
  rw [(dats m 0 c).before_fetched 0 t (fetch0_0 t) d]
  unfold Dat.fetched Dat.blockOf xblk iblk
  rw [A_eq]

/-- The constant rows' buffers hold their rows at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The result's buffer is written back at every point, so at every point it holds contents nothing names. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## Rows inside the array -/

/-- Two fillings of the angle buffer with one block agree at every entry the fetch moved. -/
theorem fill_agree (i : grid0.Coords) (d d' : S800x128.Idx → Elt F .f32) (g : (win0_0.xblock i).Idx → Elt F .f32)
    (j : S800x128.Idx) (hj : win0_0.moved i j = true) : win0_0.fill i d g j = win0_0.fill i d' g j := by
  unfold Window.fill; rw [dif_pos hj, dif_pos hj]

/-- The result's block and the angle block are cut at the same row: both arrays have 15625 rows in blocks of 800. -/
theorem xsize_rows (i : grid0.Coords) : win0_4.xsize i 0 = win0_0.xsize i 0 := rfl

/-- The angle block is never cut along its 128 lanes. -/
theorem xsize_lanes (i : grid0.Coords) : win0_0.xsize i 1 = 128 := rfl

/-- On the rows the write-back moves, the stored value does not depend on what the angle buffer holds below the
    array's end: a row of it is a function of the same row of angles. -/
theorem cut_stored (i : grid0.Coords) (d d' : S800x128.Idx → Elt F .f32) (g : (win0_0.xblock i).Idx → Elt F .f32)
    (u v w : Vec F S1x2048 .f32) :
    win0_4.cut i (stored (win0_0.fill i d g) u v w) = win0_4.cut i (stored (win0_0.fill i d' g) u v w) := by
  funext y
  have h0 : (y 0).val < win0_0.xsize i 0 := (y 0).isLt
  have h0' : (y 0).val < 800 := lt_of_lt_of_le h0 (win0_0.xsize_le i 0)
  have h1' : (y 1).val < 2048 := lt_of_lt_of_le (y 1).isLt (win0_4.xsize_le i 1)
  have e : win0_4.xinj i y = ix2 (⟨(y 0).val, h0'⟩ : Fin 800) (⟨(y 1).val, h1'⟩ : Fin 2048) := by
    funext a; match a with | ⟨0, _⟩ => rfl | ⟨1, _⟩ => rfl
  show stored (win0_0.fill i d g) u v w (win0_4.xinj i y) = stored (win0_0.fill i d' g) u v w (win0_4.xinj i y)
  rw [e]
  unfold stored
  refine k0_pay1_congr_row _ _ u v w _ (fun l => fill_agree i d d' g _ ?_) _
  refine (win0_0.moved_iff i _).mpr fun a => ?_
  match a with
  | ⟨0, _⟩ => exact h0
  | ⟨1, _⟩ => show l.val < win0_0.xsize i 1; rw [xsize_lanes]; exact l.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the angle buffer and the result's buffer, whose blocks may overhang, stated on the rows
    their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (xblk m c t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xfull m c t)))
    rw [cut_xfull]
    try iexact H0
  isplitl [H1]; · iexact H1
  isplitl [H2]; · iexact H2
  isplitl [H3]; · iexact H3
  · iexists stored (win0_0.fill (grid0.coords t) d0 (xblk m c t)) (iblk m c 1 t) (iblk m c 2 t) (iblk m c 3 t)
    change _ ⊢ owns (c : Thread nD τ) (st0_4 t) fullShare (win0_4.fill (grid0.coords t)
      (stored (win0_0.fill (grid0.coords t) d0 (xblk m c t)) (iblk m c 1 t) (iblk m c 2 t) (iblk m c 3 t))
      (win0_4.cut (grid0.coords t) (stored (xfull m c t) (iblk m c 1 t) (iblk m c 2 t) (iblk m c 3 t))))
    have hE := win0_4.fill_congr_cut (grid0.coords t) (cut_stored (F := F) (grid0.coords t) d0 (fun _ => Scalar.ofBits .f32 0#32) (xblk m c t)
      (iblk m c 1 t) (iblk m c 2 t) (iblk m c 3 t))
    iapply (Entails.of_eq (congrArg (fun Z => owns (c : Thread nD τ) (st0_4 t) fullShare Z) hE.symm))
    try iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what
    the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The function both programs compute, stated once, with no program imported.

  For an angle `x` the result is the 4×4 matrix `T(x) · R`, where `T(x)` is the rotation about the third axis by `x`
  (rows `(cos x, −sin x, 0, 0)`, `(sin x, cos x, 0, 0)`, then the identity's last two rows) and `R` a constant 4×4 matrix
  given by its sixteen f32 words. Because `T(x)` is sparse, row 0 of the product is `cos x · R₀ − sin x · R₁`, row 1 is
  `sin x · R₀ + cos x · R₁`, and rows 2 and 3 are `R₂` and `R₃`: flattened to sixteen entries, the product is
  `cos x · U + sin x · V + W` with `U = (R₀, R₁, 0, 0)`, `V = (−R₁, R₀, 0, 0)`, `W = (0, 0, R₂, R₃)`.
  `entry` is that linear form, entry by entry; `prodEntry` is the product as a sum over the contracted index, with
  `T(x)` written as `C · cos x + S · sin x + K` for constant 0/±1 matrices `C`, `S`, `K`. All constants are kept as their f32
  words, read as extended reals.
-/
import Idealize.ShloMosaic.PureOps.Ideal
import Idealize.ShloMosaic.Lib.ValueIdx

noncomputable section

namespace Cert.Spec

open Idealize.ShloMosaic Idealize.ShloMosaic.ValueIdx
open scoped BigOperators

/-- Position `4·a + b` of a 4×4 matrix flattened row by row. -/
abbrev q (a b : Fin 4) : Fin 16 := ⟨4 * a.val + b.val, by omega⟩

/-- The constant right factor `R`, row by row, as f32 words. -/
def rightW : Fin 16 → BitVec 32 :=
  ![0x3F800000#32, 0x00000000#32, 0x00000000#32, 0x3E4CCCCD#32,
    0x00000000#32, 0x3F7490EF#32, 0xBE974E6D#32, 0x00000000#32,
    0x00000000#32, 0x3E974E6D#32, 0x3F7490EF#32, 0x3DCCCCCD#32,
    0x00000000#32, 0x00000000#32, 0x00000000#32, 0x3F800000#32]

/-- The coefficient matrix of `cos x` in `T(x)`: ones at (0,0) and (1,1). -/
def cosW : Fin 16 → BitVec 32 :=
  ![0x3F800000#32, 0x00000000#32, 0x00000000#32, 0x00000000#32,
    0x00000000#32, 0x3F800000#32, 0x00000000#32, 0x00000000#32,
    0x00000000#32, 0x00000000#32, 0x00000000#32, 0x00000000#32,
    0x00000000#32, 0x00000000#32, 0x00000000#32, 0x00000000#32]

/-- The coefficient matrix of `sin x` in `T(x)`: −1 at (0,1), +1 at (1,0). -/
def sinW : Fin 16 → BitVec 32 :=
  ![0x00000000#32, 0xBF800000#32, 0x00000000#32, 0x00000000#32,
    0x3F800000#32, 0x00000000#32, 0x00000000#32, 0x00000000#32,
    0x00000000#32, 0x00000000#32, 0x00000000#32, 0x00000000#32,
    0x00000000#32, 0x00000000#32, 0x00000000#32, 0x00000000#32]

/-- The constant part of `T(x)`: ones at (2,2) and (3,3). -/
def oneW : Fin 16 → BitVec 32 :=
  ![0x00000000#32, 0x00000000#32, 0x00000000#32, 0x00000000#32,
    0x00000000#32, 0x00000000#32, 0x00000000#32, 0x00000000#32,
    0x00000000#32, 0x00000000#32, 0x3F800000#32, 0x00000000#32,
    0x00000000#32, 0x00000000#32, 0x00000000#32, 0x3F800000#32]

/-- `U = (R₀, R₁, 0, 0)`: the coefficient of `cos x` in the flattened product. -/
def uW : Fin 16 → BitVec 32 :=
  ![0x3F800000#32, 0x00000000#32, 0x00000000#32, 0x3E4CCCCD#32,
    0x00000000#32, 0x3F7490EF#32, 0xBE974E6D#32, 0x00000000#32,
    0x00000000#32, 0x00000000#32, 0x00000000#32, 0x00000000#32,
    0x00000000#32, 0x00000000#32, 0x00000000#32, 0x00000000#32]

/-- `V = (−R₁, R₀, 0, 0)`: the coefficient of `sin x`; the negated zeros of `R₁` are the word of −0. -/
def vW : Fin 16 → BitVec 32 :=
  ![0x80000000#32, 0xBF7490EF#32, 0x3E974E6D#32, 0x80000000#32,
    0x3F800000#32, 0x00000000#32, 0x00000000#32, 0x3E4CCCCD#32,
    0x00000000#32, 0x00000000#32, 0x00000000#32, 0x00000000#32,
    0x00000000#32, 0x00000000#32, 0x00000000#32, 0x00000000#32]

/-- `W = (0, 0, R₂, R₃)`: the part of the product that does not depend on `x`. -/
def wW : Fin 16 → BitVec 32 :=
  ![0x00000000#32, 0x00000000#32, 0x00000000#32, 0x00000000#32,
    0x00000000#32, 0x00000000#32, 0x00000000#32, 0x00000000#32,
    0x00000000#32, 0x3E974E6D#32, 0x3F7490EF#32, 0x3DCCCCCD#32,
    0x00000000#32, 0x00000000#32, 0x00000000#32, 0x3F800000#32]

/-- Entry `k` of the flattened product at angle `x`, as the linear form `cos x · U + sin x · V + W`. -/
def entry (x : EReal) (k : Fin 16) : EReal :=
  Ideal.cos x * Ideal.ofBits .f32 (uW k) + Ideal.sin x * Ideal.ofBits .f32 (vW k) + Ideal.ofBits .f32 (wW k)

/-- Entry `(i, c)` of `T(x) · R` as the sum over the contracted index `j` of
    `(C i j · cos x + S i j · sin x + K i j) · R j c`. -/
def prodEntry (x : EReal) (i c : Fin 4) : EReal :=
  ∑ j : Fin 4, (Ideal.ofBits .f32 (cosW (q i j)) * Ideal.cos x + Ideal.ofBits .f32 (sinW (q i j)) * Ideal.sin x
      + Ideal.ofBits .f32 (oneW (q i j))) * Ideal.ofBits .f32 (rightW (q j c))

/-- The whole result: for a column of two million angles, the two million matrices `T(x_b) · R`. -/
def G (x : FVec Ideal ⟨2, ![2000000, 1]⟩ .f32) : FVec Ideal ⟨3, ![2000000, 4, 4]⟩ .f32 :=
  fun j => entry (x (ix2 (⟨(j 0).val, (j 0).isLt⟩ : Fin 2000000) (0 : Fin 1)))
    (q (⟨(j 1).val, (j 1).isLt⟩ : Fin 4) (⟨(j 2).val, (j 2).isLt⟩ : Fin 4))

/-- `G` at the index with coordinates `b`, `i`, `c`. -/
theorem G_apply (x : FVec Ideal ⟨2, ![2000000, 1]⟩ .f32) (b : Fin 2000000) (i c : Fin 4) :
    G x (ix3 b i c) = entry (x (ix2 b (0 : Fin 1))) (q i c) := rfl

end Cert.Spec

end
-- ==== Proof.PrefixIdeal.lean ====
/-
  What the region finds in its four operand arrays, read at an index.

  Before the region the program writes the three constant rows and relabels the column of two million angles as
  15625 rows of 128: two reshapes, which keep the row-major position, so entry `(n, l)` of the [15625, 128] array is the
  angle at `128·n + l`. Each constant row holds a sixteen-entry vector repeated 128 times: entry `16·l + k` of the row
  is entry `k` of `U` (of `V`, of `W`), read off the program's table of 2048 words.
-/
import proofs.«151942_j3032246911418_2_alg».proof.Proof.Gen.KernelIdeal.Frame
import proofs.«151942_j3032246911418_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- Position `128·n + l` of the column of angles. -/
abbrev flat (n : Fin 15625) (l : Fin 128) : Fin 2000000 := ⟨128 * n.val + l.val, by omega⟩

/-- Lane `16·l + k` of a 2048-lane row. -/
abbrev lane' (l : Fin 128) (k : Fin 16) : Fin 2048 := ⟨16 * l.val + k.val, by omega⟩

/-- The [15625, 128] array the region reads is the column of angles relabelled twice: first as a flat vector of two
    million, then as 15625 rows of 128. -/
theorem V_main_v1_eq (c : Dev nD) :
    (V m c main_v1 : S15625x128.Idx → Elt F .f32)
      = shapeCast S15625x128 (shapeCast S2000000 (m ((c : Thread nD τ).loc main_arg0)) shapeCasts_S2000000x1_S2000000)
          shapeCasts_S2000000_S15625x128 := by
  show StableHlo.after hostOps0 (fun b => m (c, b)) (Proc.devRef .tc main_v1) = _
  after_results
  rfl

/-- Both relabellings keep the row-major position: `(n, l)` of [15625, 128] sits at `128·n + l`, and so does
    `(128·n + l, 0)` of [2000000, 1]. -/
theorem V_main_v1_apply (c : Dev nD) (n : Fin 15625) (l : Fin 128) :
    (V m c main_v1 : S15625x128.Idx → Elt F .f32) (ix2 n l)
      = (m ((c : Thread nD τ).loc main_arg0) : S2000000x1.Idx → Elt F .f32) (ix2 (flat n l) (0 : Fin 1)) := by
  rw [V_main_v1_eq]
  refine (shapeCast_apply _ _ (ix2 n l) (ix1 (flat n l)) ?_).trans ?_
  · rw [Shape.rowMajor_val_one, Shape.rowMajor_val_two]
    show 128 * n.val + l.val = n.val * 128 + l.val
    omega
  · refine shapeCast_apply _ _ (ix1 (flat n l)) (ix2 (flat n l) (0 : Fin 1)) ?_
    rw [Shape.rowMajor_val_one, Shape.rowMajor_val_two]
    show (128 * n.val + l.val) * 1 + 0 = 128 * n.val + l.val
    omega

/-! ## The three constant rows

Each table of 2048 words is a sixteen-word vector repeated 128 times: word `j` is word `j mod 16` of the vector. The
tables are finite, so each fact is checked entry by entry. -/

theorem lit0_eq : ∀ j : Fin 2048, lit0 j = Cert.Spec.uW ⟨j.val % 16, Nat.mod_lt _ (by omega)⟩ := by
  decide +kernel

theorem lit1_eq : ∀ j : Fin 2048, lit1 j = Cert.Spec.vW ⟨j.val % 16, Nat.mod_lt _ (by omega)⟩ := by
  decide +kernel

theorem lit2_eq : ∀ j : Fin 2048, lit2 j = Cert.Spec.wW ⟨j.val % 16, Nat.mod_lt _ (by omega)⟩ := by
  decide +kernel

/-- Lane `16·l + k` of the one-row array sits at row-major position `16·l + k`, whose residue mod 16 is `k`. -/
theorem lane_mod (l : Fin 128) (k : Fin 16) :
    (⟨(S1x2048.rowMajor (ix2 (0 : Fin 1) (lane' l k))).val % 16, Nat.mod_lt _ (by omega)⟩ : Fin 16) = k := by
  apply Fin.ext
  rw [Shape.rowMajor_val_two]
  show (0 * 2048 + (16 * l.val + k.val)) % 16 = k.val
  have := k.isLt
  omega

/-- Each constant row, as the program writes it: the table's word at the row-major position. -/
theorem V_main_cst_eq (c : Dev nD) :
    (V m c main_cst : S1x2048.Idx → Elt F .f32) = fun i => FloatOps.ofBits .f32 (lit0 (S1x2048.rowMajor i)) := by
  show StableHlo.after hostOps0 (fun b => m (c, b)) (Proc.devRef .tc main_cst) = _
  after_results
  rfl

theorem V_main_cst_0_eq (c : Dev nD) :
    (V m c main_cst_0 : S1x2048.Idx → Elt F .f32) = fun i => FloatOps.ofBits .f32 (lit1 (S1x2048.rowMajor i)) := by
  show StableHlo.after hostOps0 (fun b => m (c, b)) (Proc.devRef .tc main_cst_0) = _
  after_results
  rfl

theorem V_main_cst_1_eq (c : Dev nD) :
    (V m c main_cst_1 : S1x2048.Idx → Elt F .f32) = fun i => FloatOps.ofBits .f32 (lit2 (S1x2048.rowMajor i)) := by
  show StableHlo.after hostOps0 (fun b => m (c, b)) (Proc.devRef .tc main_cst_1) = _
  after_results
  rfl

theorem V_main_cst_apply (c : Dev nD) (l : Fin 128) (k : Fin 16) :
    (V m c main_cst : S1x2048.Idx → Elt F .f32) (ix2 (0 : Fin 1) (lane' l k)) = FloatOps.ofBits .f32 (Cert.Spec.uW k) := by
  rw [V_main_cst_eq]
  exact congrArg (FloatOps.ofBits .f32) ((lit0_eq _).trans (congrArg Cert.Spec.uW (lane_mod l k)))

theorem V_main_cst_0_apply (c : Dev nD) (l : Fin 128) (k : Fin 16) :
    (V m c main_cst_0 : S1x2048.Idx → Elt F .f32) (ix2 (0 : Fin 1) (lane' l k)) = FloatOps.ofBits .f32 (Cert.Spec.vW k) := by
  rw [V_main_cst_0_eq]
  exact congrArg (FloatOps.ofBits .f32) ((lit1_eq _).trans (congrArg Cert.Spec.vW (lane_mod l k)))

theorem V_main_cst_1_apply (c : Dev nD) (l : Fin 128) (k : Fin 16) :
    (V m c main_cst_1 : S1x2048.Idx → Elt F .f32) (ix2 (0 : Fin 1) (lane' l k)) = FloatOps.ofBits .f32 (Cert.Spec.wW k) := by
  rw [V_main_cst_1_eq]
  exact congrArg (FloatOps.ofBits .f32) ((lit2_eq _).trans (congrArg Cert.Spec.wW (lane_mod l k)))

end Cert.KernelIdeal.Hand

end
-- ==== Proof.BlockIdeal.lean ====
/-
  What one grid point writes back, as a block of one whole-array function.

  `G2` is the [15625, 2048] result as a function of the column of angles: entry `(n, 16·l + k)` is entry `k` of the
  flattened product at the angle at position `128·n + l`. At grid point `t` the write-back moves the rows of the result's
  buffer that lie inside the array; row `y` of them is row `800·t + y` of the array, and the stored value there is
  `cos x · U + sin x · V + W` at the angle the fetch read from row `800·t + y` of the [15625, 128] array of angles, which is
  the angle at position `128·(800·t + y) + l` of the column. So what point `t` writes back is block `t` of `G2`.
-/
import proofs.«151942_j3032246911418_2_alg».proof.Proof.DataIdeal
import proofs.«151942_j3032246911418_2_alg».proof.Proof.PayloadIdeal
import proofs.«151942_j3032246911418_2_alg».proof.Proof.PrefixIdeal
import proofs.«151942_j3032246911418_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The [15625, 2048] result as one function of the column of angles. -/
def G2 (x : FVec Ideal S2000000x1 .f32) : FVec Ideal S15625x2048 .f32 :=
  fun i => Cert.Spec.entry
    (x (ix2 (⟨128 * (i 0).val + (i 1).val / 16, by have := idx2_lt0 i; have := idx2_lt1 i; omega⟩ : Fin 2000000) (0 : Fin 1)))
    (⟨(i 1).val % 16, Nat.mod_lt _ (by decide)⟩ : Fin 16)

/-- `G2` at row `n`, lane `16·l + k`. -/
theorem G2_apply (x : FVec Ideal S2000000x1 .f32) (n : Fin 15625) (l : Fin 128) (k : Fin 16) :
    G2 x (ix2 n (lane l k)) = Cert.Spec.entry (x (ix2 (flat n l) (0 : Fin 1))) k := by
  -- (16·l + k) / 16 = l and (16·l + k) % 16 = k
  unfold G2
  exact congrArg₂ (fun (a : Fin 2000000) (b : Fin 16) => Cert.Spec.entry (x (ix2 a (0 : Fin 1))) b)
    (Fin.ext (by show 128 * n.val + (16 * l.val + k.val) / 16 = 128 * n.val + l.val; omega))
    (Fin.ext (by show (16 * l.val + k.val) % 16 = k.val; omega))

/-! ## The grid, decided once

Over the twenty points: the angle window and the result window sit at block row `t`, lane block 0; the three constant
rows at block (0, 0); both moving windows span all their lanes; they move the same number of rows (800, and 425 at the last
point), and those rows end inside the array: `800·t + rows ≤ 15625`. -/

theorem grid_facts : ∀ t : Fin cfg0.N,
    win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_0.xsize (grid0.coords t) (1 : Fin 2) = 128
    ∧ win0_4.xsize (grid0.coords t) (1 : Fin 2) = 2048
    ∧ win0_4.xsize (grid0.coords t) (0 : Fin 2) = win0_0.xsize (grid0.coords t) (0 : Fin 2)
    ∧ win0_4.xsize (grid0.coords t) (0 : Fin 2) ≤ 800
    ∧ t.val * 800 + win0_4.xsize (grid0.coords t) (0 : Fin 2) ≤ 15625 :=
  (by decide +kernel : ∀ t : Fin grid0.N, _)

/-! ## The blocks the body reads, entry by entry

An entry of a block sits in its array, on each axis, at the block index times the block's size plus its own coordinate. -/

section BlockReads

variable {F : FTy → Type} [FloatOps F]
variable (m : (ℓ : Loc nD τ sig) → Buf (Elt F) ℓ)

/-- Row `y` of the angle block at point `t` is row `800·t + y` of the [15625, 128] array, lane for lane. -/
theorem iblk0_apply (c : Dev nD) (t : Fin cfg0.N) (y : (win0_0.xblock (grid0.coords t)).Idx) (n : Fin 15625) (l : Fin 128)
    (hn : n.val = t.val * 800 + (y 0).val) (hl : l.val = (y 1).val) :
    iblk m c 0 t y = (V m c main_v1 : S15625x128.Idx → Elt F .f32) (ix2 n l) := by
  obtain ⟨f00, f01, -⟩ := grid_facts t
  show (V m c main_v1 : S15625x128.Idx → Elt F .f32) (((cfg0.win 0).blk t).view.emb y) = _
  refine congrArg _ (funext fun a => Fin.ext ?_)
  match a with
  | ⟨0, _⟩ =>
    show win0_0.index t (0 : Fin 2) * 800 + 1 * (y 0).val = n.val
    rw [f00, hn]; omega
  | ⟨1, _⟩ =>
    show win0_0.index t (1 : Fin 2) * 128 + 1 * (y 1).val = l.val
    rw [f01, hl]; omega

/-- The block of `U` at every point is the whole row. -/
theorem iblk1_apply (c : Dev nD) (t : Fin cfg0.N) (j : Fin 2048) :
    iblk m c 1 t (ix2 (0 : Fin 1) j) = (V m c main_cst : S1x2048.Idx → Elt F .f32) (ix2 (0 : Fin 1) j) := by
  obtain ⟨-, -, -, -, f10, f11, -⟩ := grid_facts t
  show (V m c main_cst : S1x2048.Idx → Elt F .f32) (((cfg0.win 1).blk t).view.emb (ix2 (0 : Fin 1) j)) = _
  refine congrArg _ (funext fun a => Fin.ext ?_)
  match a with
  | ⟨0, _⟩ =>
    show win0_1.index t (0 : Fin 2) * 1 + 1 * 0 = 0
    rw [f10]
  | ⟨1, _⟩ =>
    show win0_1.index t (1 : Fin 2) * 2048 + 1 * j.val = j.val
    rw [f11]; omega

/-- The block of `V` at every point is the whole row. -/
theorem iblk2_apply (c : Dev nD) (t : Fin cfg0.N) (j : Fin 2048) :
    iblk m c 2 t (ix2 (0 : Fin 1) j) = (V m c main_cst_0 : S1x2048.Idx → Elt F .f32) (ix2 (0 : Fin 1) j) := by
  obtain ⟨-, -, -, -, -, -, f20, f21, -⟩ := grid_facts t
  show (V m c main_cst_0 : S1x2048.Idx → Elt F .f32) (((cfg0.win 2).blk t).view.emb (ix2 (0 : Fin 1) j)) = _
  refine congrArg _ (funext fun a => Fin.ext ?_)
  match a with
  | ⟨0, _⟩ =>
    show win0_2.index t (0 : Fin 2) * 1 + 1 * 0 = 0
    rw [f20]
  | ⟨1, _⟩ =>
    show win0_2.index t (1 : Fin 2) * 2048 + 1 * j.val = j.val
    rw [f21]; omega

/-- The block of `W` at every point is the whole row. -/
theorem iblk3_apply (c : Dev nD) (t : Fin cfg0.N) (j : Fin 2048) :
    iblk m c 3 t (ix2 (0 : Fin 1) j) = (V m c main_cst_1 : S1x2048.Idx → Elt F .f32) (ix2 (0 : Fin 1) j) := by
  obtain ⟨-, -, -, -, -, -, -, -, f30, f31, -⟩ := grid_facts t
  show (V m c main_cst_1 : S1x2048.Idx → Elt F .f32) (((cfg0.win 3).blk t).view.emb (ix2 (0 : Fin 1) j)) = _
  refine congrArg _ (funext fun a => Fin.ext ?_)
  match a with
  | ⟨0, _⟩ =>
    show win0_3.index t (0 : Fin 2) * 1 + 1 * 0 = 0
    rw [f30]
  | ⟨1, _⟩ =>
    show win0_3.index t (1 : Fin 2) * 2048 + 1 * j.val = j.val
    rw [f31]; omega

/-- A row of the filled-out angle buffer that the fetch moved (a row inside the array) holds row `800·t + r` of the
    [15625, 128] array: there the filling is the fetched block, whatever fills the rows below the array's end. -/
theorem xfull_apply (c : Dev nD) (t : Fin cfg0.N) (r : Fin 800) (l : Fin 128) (n : Fin 15625)
    (hr : r.val < win0_0.xsize (grid0.coords t) (0 : Fin 2)) (hn : n.val = t.val * 800 + r.val) :
    xfull m c t (ix2 r l) = (V m c main_v1 : S15625x128.Idx → Elt F .f32) (ix2 n l) := by
  obtain ⟨-, -, -, -, -, -, -, -, -, -, fx1, -⟩ := grid_facts t
  have hmv : win0_0.moved (grid0.coords t) (ix2 r l) = true :=
    (win0_0.moved_iff _ _).mpr fun a => by
      match a with
      | ⟨0, _⟩ => exact hr
      | ⟨1, _⟩ => exact lt_of_lt_of_eq l.isLt fx1.symm
  unfold xfull Pipeline.Window.fill
  rw [dif_pos hmv]
  unfold xblk
  exact iblk0_apply m c t _ n l hn rfl

end BlockReads

/-! ## One entry of what is written back -/

/-- At the ideal instance the stored value at row `r`, lane `16·l + k`, when the angle buffer's row `r` is row `n` of the
    [15625, 128] array, is entry `k` of the flattened product at the angle at position `128·n + l`: the angle by the two
    relabellings, the three coefficients by the constant rows' period sixteen, and `cos x · U + sin x · V + W` is the
    specification's linear form by definition. -/
theorem stored_entry (m : (ℓ : Loc nD τ sig) → Buf (Elt Ideal) ℓ) (c : Dev nD) (t : Fin cfg0.N)
    (x0 : Vec Ideal S800x128 .f32) (r : Fin 800) (l : Fin 128) (k : Fin 16) (n : Fin 15625)
    (hx : x0 (ix2 r l) = (V m c main_v1 : S15625x128.Idx → Elt Ideal .f32) (ix2 n l)) :
    stored x0 (iblk m c 1 t) (iblk m c 2 t) (iblk m c 3 t) (ix2 r (lane l k))
      = Cert.Spec.entry ((m ((c : Thread nD τ).loc main_arg0) : S2000000x1.Idx → Elt Ideal .f32) (ix2 (flat n l) (0 : Fin 1))) k := by
  have e0 : x0 (ix2 r l) = (m ((c : Thread nD τ).loc main_arg0) : S2000000x1.Idx → Elt Ideal .f32) (ix2 (flat n l) (0 : Fin 1)) :=
    hx.trans (V_main_v1_apply m c n l)
  have e1 : iblk m c 1 t (ix2 (0 : Fin 1) (lane l k)) = FloatOps.ofBits (F := Ideal) .f32 (Cert.Spec.uW k) :=
    (iblk1_apply m c t (lane l k)).trans (V_main_cst_apply m c l k)
  have e2 : iblk m c 2 t (ix2 (0 : Fin 1) (lane l k)) = FloatOps.ofBits (F := Ideal) .f32 (Cert.Spec.vW k) :=
    (iblk2_apply m c t (lane l k)).trans (V_main_cst_0_apply m c l k)
  have e3 : iblk m c 3 t (ix2 (0 : Fin 1) (lane l k)) = FloatOps.ofBits (F := Ideal) .f32 (Cert.Spec.wW k) :=
    (iblk3_apply m c t (lane l k)).trans (V_main_cst_1_apply m c l k)
  unfold stored
  refine (k0_pay1_apply _ _ _ _ r l k).trans ?_
  rw [e0, e1, e2, e3]
  rfl

/-- What point `t` writes back is block `t` of `G2` of the column of angles. -/
theorem flushed4_eq (m : (ℓ : Loc nD τ sig) → Buf (Elt Ideal) ℓ) (c : Dev nD) (t : Fin cfg0.N) :
    (dats (F := Ideal) m 0 c).flushed 4 t
      = ((cfg0.win 4).blk t).view.read (Elt Ideal) (G2 (m ((c : Thread nD τ).loc main_arg0))) := by
  show (cfg0.win 4).cut (grid0.coords t) ((dats (F := Ideal) m 0 c).after 4 t) = _
  rw [after0_4]
  funext y
  obtain ⟨-, -, f40, f41, -, -, -, -, -, -, -, fx41, fx40, fle, finb⟩ := grid_facts t
  -- y is (row, lane) of a moved row: row below the number of rows moved, lane below 2048
  have hy0 : (y 0).val < win0_4.xsize (grid0.coords t) (0 : Fin 2) := (y 0).isLt
  have hy1 : (y 1).val < 2048 := lt_of_lt_of_eq (y 1).isLt fx41
  have hr : (y 0).val < win0_0.xsize (grid0.coords t) (0 : Fin 2) := lt_of_lt_of_eq hy0 fx40
  -- in the buffer it is (row, 16·(lane / 16) + lane % 16)
  have hL : win0_4.xinj (grid0.coords t) y
      = ix2 (⟨(y 0).val, by omega⟩ : Fin 800) (lane (⟨(y 1).val / 16, by omega⟩ : Fin 128) (⟨(y 1).val % 16, by omega⟩ : Fin 16)) :=
    funext fun a => Fin.ext (by
      match a with
      | ⟨0, _⟩ => rfl
      | ⟨1, _⟩ => show (y 1).val = 16 * ((y 1).val / 16) + (y 1).val % 16; omega)
  -- in the array it is (800·t + row, the same lane)
  have hR : ((cfg0.win 4).blk t).view.emb y
      = ix2 (⟨t.val * 800 + (y 0).val, by omega⟩ : Fin 15625) (lane (⟨(y 1).val / 16, by omega⟩ : Fin 128) (⟨(y 1).val % 16, by omega⟩ : Fin 16)) :=
    funext fun a => Fin.ext (by
      match a with
      | ⟨0, _⟩ =>
        show win0_4.index t (0 : Fin 2) * 800 + 1 * (y 0).val = t.val * 800 + (y 0).val
        rw [f40]; omega
      | ⟨1, _⟩ =>
        show win0_4.index t (1 : Fin 2) * 2048 + 1 * (y 1).val = 16 * ((y 1).val / 16) + (y 1).val % 16
        rw [f41]; omega)
  show stored (xfull m c t) (iblk m c 1 t) (iblk m c 2 t) (iblk m c 3 t) (win0_4.xinj (grid0.coords t) y)
    = G2 (m ((c : Thread nD τ).loc main_arg0)) (((cfg0.win 4).blk t).view.emb y)
  rw [hL, hR, G2_apply]
  exact stored_entry m c t (xfull m c t) _ _ _ _ (xfull_apply m c t _ _ _ hr rfl)

end Cert.KernelIdeal.Hand

end
-- ==== Proof.ValueIdeal.lean ====
/-
  From the twenty written-back blocks to the whole result, and through the final relabelling.

  The result array has 15625 rows of 2048 lanes. Grid point `t` writes back the rows `800·t … 800·t + 799` that lie inside
  the array: all 800 of them for `t < 19`, and for `t = 19` only the 425 rows `15200 … 15624` (15625 = 19·800 + 425); every
  block spans all 2048 lanes. Row `r` therefore lies in the block of point `r / 800` when `r < 15200` and in the last block
  otherwise, so the twenty blocks cover the array. Each point writes back the matching block of one whole-array function
  `G2`, hence after the last point the array holds `G2` of the column of angles.

  The program then relabels [15625, 2048] as [2000000, 4, 4], which keeps the row-major position. Entry `(b, i, c)` of the
  new shape sits at position `16·b + 4·i + c`; with `b = 128·n + l` this is `2048·n + 16·l + (4·i + c)`, the position of row
  `n`, lane `16·l + (4·i + c)` of the old shape. There `G2` holds entry `4·i + c` of the flattened product at the angle at
  position `128·n + l = b`: the relabelled array is the specification `G` of the column of angles.
-/
import proofs.«151942_j3032246911418_2_alg».proof.Proof.BlockIdeal
import proofs.«151942_j3032246911418_2_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.Tactic

/-! ## Which rows each grid point writes back -/

/-- The result window's schedule, checked at each of the twenty points: the block index along the rows is the point's
    number, the block keeps 800 rows except the last, which keeps 425; along the lanes the block index is 0 and the
    block keeps all 2048 lanes. -/
theorem result_schedule : ∀ t : Fin cfg0.N, win0_4.index t (0 : Fin 2) = t.val
    ∧ win0_4.xsize (grid0.coords t) (0 : Fin 2) = (if t.val = 19 then 425 else 800)
    ∧ win0_4.index t (1 : Fin 2) * win0_4.size (1 : Fin 2) = 0 ∧ win0_4.xsize (grid0.coords t) (1 : Fin 2) = 2048 :=
  (by decide +kernel : ∀ t : Fin grid0.N, win0_4.index t (0 : Fin 2) = t.val
    ∧ win0_4.xsize (grid0.coords t) (0 : Fin 2) = (if t.val = 19 then 425 else 800)
    ∧ win0_4.index t (1 : Fin 2) * win0_4.size (1 : Fin 2) = 0 ∧ win0_4.xsize (grid0.coords t) (1 : Fin 2) = 2048)

/-- An index of the result array is in point `t`'s block iff its row is one of the block's rows inside the array; every
    lane is in, since the block spans the lanes. -/
theorem mem_result_block (t : Fin cfg0.N) (i : S15625x2048.Idx) :
    i ∈ ((cfg0.win 4).blk t).view.set ↔ win0_4.index t (0 : Fin 2) * 800 ≤ (i 0).val
      ∧ (i 0).val < win0_4.index t (0 : Fin 2) * 800 + win0_4.xsize (grid0.coords t) (0 : Fin 2) := by
  show i ∈ ((View.whole main_v2).slice (win0_4.rect t)).set ↔ _
  rw [View.set_slice_whole, Rect.mem_set_unit]
  have h1 : (i 1).val < 2048 := (i 1).isLt
  obtain ⟨-, -, e1, e2⟩ := result_schedule t
  refine ⟨fun h => h 0, fun h a => ?_⟩
  match a with
  | ⟨0, _⟩ => exact h
  | ⟨1, _⟩ =>
    change win0_4.index t (1 : Fin 2) * win0_4.size (1 : Fin 2) ≤ (i 1).val
      ∧ (i 1).val < win0_4.index t (1 : Fin 2) * win0_4.size (1 : Fin 2) + win0_4.xsize (grid0.coords t) (1 : Fin 2)
    rw [e1, e2]; omega

/-- The twenty blocks cover the array: row `r < 15200` is in the block of point `r / 800` (rows `800·(r / 800)` up to
    `800·(r / 800) + 799`), and a row from 15200 on is in the last block (rows 15200 up to 15624). -/
theorem result_blocks_cover (i : S15625x2048.Idx) :
    ∃ t : Fin cfg0.N, (cfg0.win 4).flush t = true ∧ i ∈ ((cfg0.win 4).blk t).view.set := by
  have h0 : (i 0).val < 15625 := (i 0).isLt
  have hN : cfg0.N = 20 := N_0
  by_cases hr : (i 0).val < 15200
  · have ht : (i 0).val / 800 < cfg0.N := by rw [hN]; omega
    refine ⟨⟨(i 0).val / 800, ht⟩, flush0_4 _, ?_⟩
    rw [mem_result_block]
    obtain ⟨e0, e1, -, -⟩ := result_schedule ⟨(i 0).val / 800, ht⟩
    rw [e0, e1, if_neg (by show ¬ (i 0).val / 800 = 19; omega)]
    show (i 0).val / 800 * 800 ≤ (i 0).val ∧ (i 0).val < (i 0).val / 800 * 800 + 800
    omega
  · have ht : 19 < cfg0.N := by rw [hN]; omega
    refine ⟨⟨19, ht⟩, flush0_4 _, ?_⟩
    rw [mem_result_block]
    obtain ⟨e0, e1, -, -⟩ := result_schedule ⟨19, ht⟩
    rw [e0, e1, if_pos rfl]
    show 19 * 800 ≤ (i 0).val ∧ (i 0).val < 19 * 800 + 425
    omega

/-- After the last grid point the result array holds `G2` of the column of angles: each point wrote back its block of
    `G2`, and the blocks cover the array. -/
theorem result_array_eq (m : (ℓ : Loc nD τ sig) → Buf (Elt Ideal) ℓ) (c : Dev nD) :
    (dats (F := Ideal) m 0 c).arrAt 4 cfg0.N = G2 (m ((c : Thread nD τ).loc main_arg0)) :=
  (dats (F := Ideal) m 0 c).arrAt_eq_of_cover 4 _ (fun t _ => flushed4_eq m c t) result_blocks_cover

/-! ## The final relabelling -/

/-- `G2` relabelled as [2000000, 4, 4], at the entry `(b, i, c)`: its row-major position `16·b + 4·i + c` is that of row
    `b / 128`, lane `16·(b mod 128) + (4·i + c)` of [15625, 2048], where `G2` holds entry `4·i + c` of the flattened product
    at the angle at position `128·(b / 128) + b mod 128 = b`. -/
theorem relabel_G2_apply (x : FVec Ideal S2000000x1 .f32) (b : Fin 2000000) (i c' : Fin 4) :
    shapeCast S2000000x4x4 (G2 x) shapeCasts_S15625x2048_S2000000x4x4 (ix3 b i c') = Cert.Spec.G x (ix3 b i c') := by
  have hb := b.isLt
  have hi := i.isLt
  have hc := c'.isLt
  rw [Cert.Spec.G_apply]
  refine (shapeCast_apply _ _ (ix3 b i c')
    (ix2 (⟨b.val / 128, by omega⟩ : Fin 15625) (lane (⟨b.val % 128, by omega⟩ : Fin 128) (Cert.Spec.q i c'))) ?_).trans ?_
  · rw [Shape.rowMajor_val_two, Shape.rowMajor_val_three]
    show b.val / 128 * 2048 + (16 * (b.val % 128) + (4 * i.val + c'.val)) = (b.val * 4 + i.val) * 4 + c'.val
    omega
  · rw [G2_apply]
    have hflat : flat (⟨b.val / 128, by omega⟩ : Fin 15625) (⟨b.val % 128, by omega⟩ : Fin 128) = b :=
      Fin.ext (by show 128 * (b.val / 128) + b.val % 128 = b.val; omega)
    rw [hflat]

/-- `G2` relabelled as [2000000, 4, 4] is the specification `G`. -/
theorem relabel_G2 (x : FVec Ideal S2000000x1 .f32) :
    shapeCast S2000000x4x4 (G2 x) shapeCasts_S15625x2048_S2000000x4x4 = Cert.Spec.G x := by
  funext j
  rw [eq_ix3 j]
  exact relabel_G2_apply x (j 0) (j 1) (j 2)

/-- What the line after the region leaves in the [2000000, 4, 4] buffer: the relabelling of the result array as the region
    left it, which is `G2` of the column of angles. -/
theorem after_region_eq (m : (ℓ : Loc nD τ sig) → Buf (Elt Ideal) ℓ) (c : Dev nD) :
    (Pipeline.afterTail₀ cfgs (dats (F := Ideal) m) 0 (V0 m) [hostOps1] c main_v3 : S2000000x4x4.Idx → Elt Ideal .f32)
      = shapeCast S2000000x4x4 (G2 (m ((c : Thread nD τ).loc main_arg0))) shapeCasts_S15625x2048_S2000000x4x4 := by
  unfold Pipeline.afterTail₀
  show StableHlo.after hostOps1 _ (Proc.devRef .tc main_v3) = _
  after_results
  exact congrArg (fun X : S15625x2048.Idx → Elt Ideal .f32 => shapeCast S2000000x4x4 X shapeCasts_S15625x2048_S2000000x4x4)
    ((Pipeline.withArrays_arr spec0 launch0.win.arr_inj c _ _ 4).trans (result_array_eq m c))

/-- So the [2000000, 4, 4] buffer ends holding the specification `G` of the column of angles. -/
theorem after_region (m : (ℓ : Loc nD τ sig) → Buf (Elt Ideal) ℓ) (c : Dev nD) :
    Pipeline.afterTail₀ cfgs (dats (F := Ideal) m) 0 (V0 m) [hostOps1] c main_v3
      = Cert.Spec.G (m ((c : Thread nD τ).loc main_arg0)) :=
  (after_region_eq m c).trans (relabel_G2 _)

/-! ## The run, read -/

/-- Every weakly fair execution of the program terminates, and every final state has the output buffer at `G` of the
    column of angles and the column of angles as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Cert.Spec.G (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (after_region m c),
       ((h c).2 main_arg0 (Pipeline.mem_restRefs_of main_arg0 (by decide) (by decide))).trans (W_main_arg0 m (dats m) c)⟩)
    (run_main (F := Ideal) m ρ)

end Cert.KernelIdeal.Hand

end
-- ==== Proof.Algebra.lean ====
/-
  The product `T(x) · R`, summed over the contracted index, is the linear form `cos x · U + sin x · V + W`.

  Row by row: `T(x)` has rows `(cos x, −sin x, 0, 0)`, `(sin x, cos x, 0, 0)`, `(0, 0, 1, 0)`, `(0, 0, 0, 1)`, so the sum over
  `j` of `T(x) i j · R j c` has at most two terms that are not a product with zero. The identity uses only that the
  extended reals are a commutative monoid under `+` and under `·`, that `0 · a = 0` and `1 · a = a` for every extended
  real `a` (the infinities and the junk value of `cos` at an infinity included), and that negation moves across a
  product; nothing is cancelled and nothing is distributed, so no finiteness is needed.
-/
import proofs.«151942_j3032246911418_2_alg».proof.Proof.Spec
import Idealize.ShloMosaic.PureOps.Ideal.Laws
import Idealize.ShloMosaic.Lib.IdealHost

noncomputable section

namespace Cert.Spec

open Idealize.ShloMosaic
open scoped BigOperators

/-! ### The constant words that are read exactly

  Every word of `R` other than `0`, `±1` stays an opaque extended real; what is needed is only how the sign bit acts:
  the word with the sign bit set denotes the negative of the word without it, and the word of `−0` denotes `0`. -/

/-- The f32 pattern `0xBF800000` is minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The f32 pattern of `−0` (only the sign bit set) is the extended real zero. -/
theorem ofBits_neg_zero_f32 : Ideal.ofBits .f32 0x80000000#32 = 0 := by
  simp [Ideal.ofBits, Ideal.ieee]

/-- `0xBF7490EF` is `0x3F7490EF` with the sign bit set: the same magnitude, negated. -/
theorem ofBits_BF7490EF : Ideal.ofBits .f32 0xBF7490EF#32 = -(Ideal.ofBits .f32 0x3F7490EF#32) := by
  simp [Ideal.ofBits, Ideal.ieee, -EReal.coe_mul, -EReal.coe_neg]
  rw [← EReal.coe_neg]

/-- `0xBE974E6D` is `0x3E974E6D` with the sign bit set: the same magnitude, negated. -/
theorem ofBits_BE974E6D : Ideal.ofBits .f32 0xBE974E6D#32 = -(Ideal.ofBits .f32 0x3E974E6D#32) := by
  simp [Ideal.ofBits, Ideal.ieee, -EReal.coe_mul, -EReal.coe_neg]
  rw [← EReal.coe_neg]

/-! ### The four rows

  In each row, and for each column `c`, the coefficients `C i j`, `S i j`, `K i j` are `0` or `±1`, so every summand is
  `0 · R j c`, `(cos x) · R j c`, `(± sin x) · R j c` or `1 · R j c`; rows `R₀` and `R₁` have disjoint supports, so at most one
  summand survives in each entry, and it is the one the linear form names. -/

/-- Row 0 of `T(x) · R` is `cos x · R₀ + (−sin x) · R₁`; the linear form has `sin x · (−R₁)`, the same product with the sign
    moved to the other factor, and `sin x · (−0) = 0` where `R₁` vanishes. -/
theorem prodEntry_row0 (x : EReal) (c : Fin 4) : prodEntry x 0 c = entry x (q 0 c) := by
  fin_cases c <;>
    simp [prodEntry, entry, q, Fin.sum_univ_four, cosW, sinW, oneW, rightW, uW, vW, wW,
      ofBits_neg_one_f32, ofBits_neg_zero_f32, ofBits_BF7490EF, ofBits_BE974E6D]

/-- Row 1 of `T(x) · R` is `sin x · R₀ + cos x · R₁`, which the linear form lists as `cos x · R₁ + sin x · R₀`. -/
theorem prodEntry_row1 (x : EReal) (c : Fin 4) : prodEntry x 1 c = entry x (q 1 c) := by
  fin_cases c <;>
    simp [prodEntry, entry, q, Fin.sum_univ_four, cosW, sinW, oneW, rightW, uW, vW, wW]

/-- Row 2 of `T(x) · R` is `1 · R₂`: both `cos x` and `sin x` meet only zero coefficients. -/
theorem prodEntry_row2 (x : EReal) (c : Fin 4) : prodEntry x 2 c = entry x (q 2 c) := by
  fin_cases c <;>
    simp [prodEntry, entry, q, Fin.sum_univ_four, cosW, sinW, oneW, rightW, uW, vW, wW]

/-- Row 3 of `T(x) · R` is `1 · R₃`. -/
theorem prodEntry_row3 (x : EReal) (c : Fin 4) : prodEntry x 3 c = entry x (q 3 c) := by
  fin_cases c <;>
    simp [prodEntry, entry, q, Fin.sum_univ_four, cosW, sinW, oneW, rightW, uW, vW, wW]

/-- Entry `(i, c)` of the product `T(x) · R` is entry `4·i + c` of the linear form `cos x · U + sin x · V + W`, for every
    extended real `x`. -/
theorem prodEntry_eq_entry (x : EReal) (i c : Fin 4) : prodEntry x i c = entry x (q i c) := by
  fin_cases i
  · exact prodEntry_row0 x c
  · exact prodEntry_row1 x c
  · exact prodEntry_row2 x c
  · exact prodEntry_row3 x c

end Cert.Spec

end
-- ==== Proof.Reference.lean ====
/-
  The reference program, read as one function of its argument.

  The reference forms, for every angle `x_b`, the matrix `T(x_b) = C · cos x_b + S · sin x_b + K` from three constant
  0/±1 matrices (each broadcast along the batch axis, the cosines and sines broadcast along the two matrix axes), and
  contracts it with the constant matrix `R` over the shared axis. First part: the program is a straight line of
  twenty-four host operations, so every execution ends with the result buffer at the composed term `refTerm` of the
  argument. Second part: at the extended reals, `refTerm x` at the index `(b, i, c)` is the sum over `j` of
  `(C i j · cos x_b + S i j · sin x_b + K i j) · R j c`, which is the specification's `prodEntry`, hence its `entry`.
-/
import proofs.«151942_j3032246911418_2_alg».proof.Proof.Gen.ReferenceIdeal
import proofs.«151942_j3032246911418_2_alg».proof.Proof.Spec
import proofs.«151942_j3032246911418_2_alg».proof.Proof.Algebra
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

section Run

variable {F : FTy → Type} [FloatOps F]

/-- The four constant matrices as arrays: the word at row-major position of each index, read as a float. -/
abbrev cstC : FVec F S4x4 .f32 := fun i => FloatOps.ofBits .f32 (lit0 (S4x4.rowMajor i))
abbrev cstS : FVec F S4x4 .f32 := fun i => FloatOps.ofBits .f32 (lit1 (S4x4.rowMajor i))
abbrev cstK : FVec F S4x4 .f32 := fun i => FloatOps.ofBits .f32 (lit2 (S4x4.rowMajor i))
abbrev cstR : FVec F S4x4 .f32 := fun i => FloatOps.ofBits .f32 (lit3 (S4x4.rowMajor i))

/-- The program's twenty-four operations, in order. -/
abbrev ops : List (HloOp τ sig (Elt F)) :=
  [ nullary main_cst (fun i => FloatOps.ofBits .f32 (lit0 (S4x4.rowMajor i))),
    nullary main_cst_0 (fun i => FloatOps.ofBits .f32 (lit1 (S4x4.rowMajor i))),
    nullary main_cst_1 (fun i => FloatOps.ofBits .f32 (lit2 (S4x4.rowMajor i))),
    nullary main_cst_2 (fun i => FloatOps.ofBits .f32 (lit3 (S4x4.rowMajor i))),
    unary main_arg0 main_v0 (Host.cos : (⟨S2000000x1, .f32⟩ : BufTy).Contents (Elt F) → (⟨S2000000x1, .f32⟩ : BufTy).Contents (Elt F)),
    reshape main_v0 main_v1 rfl shapeCasts_S2000000x1_S2000000,
    unary main_v1 main_v2 (broadcastInDim S2000000x1x1 ![0] bcast_S2000000_S2000000x1x1_0 : (⟨S2000000, .f32⟩ : BufTy).Contents (Elt F) → (⟨S2000000x1x1, .f32⟩ : BufTy).Contents (Elt F)),
    unary main_arg0 main_v3 (Host.sin : (⟨S2000000x1, .f32⟩ : BufTy).Contents (Elt F) → (⟨S2000000x1, .f32⟩ : BufTy).Contents (Elt F)),
    reshape main_v3 main_v4 rfl shapeCasts_S2000000x1_S2000000,
    unary main_v4 main_v5 (broadcastInDim S2000000x1x1 ![0] bcast_S2000000_S2000000x1x1_0 : (⟨S2000000, .f32⟩ : BufTy).Contents (Elt F) → (⟨S2000000x1x1, .f32⟩ : BufTy).Contents (Elt F)),
    unary main_cst main_v6 (broadcastInDim S1x4x4 ![1, 2] bcast_S4x4_S1x4x4_1_2 : (⟨S4x4, .f32⟩ : BufTy).Contents (Elt F) → (⟨S1x4x4, .f32⟩ : BufTy).Contents (Elt F)),
    unary main_v6 main_v7 (broadcastInDim S2000000x4x4 ![0, 1, 2] bcast_S1x4x4_S2000000x4x4_0_1_2 : (⟨S1x4x4, .f32⟩ : BufTy).Contents (Elt F) → (⟨S2000000x4x4, .f32⟩ : BufTy).Contents (Elt F)),
    unary main_v2 main_v8 (broadcastInDim S2000000x4x4 ![0, 1, 2] bcast_S2000000x1x1_S2000000x4x4_0_1_2 : (⟨S2000000x1x1, .f32⟩ : BufTy).Contents (Elt F) → (⟨S2000000x4x4, .f32⟩ : BufTy).Contents (Elt F)),
    binary main_v7 main_v8 main_v9 (mulf : (⟨S2000000x4x4, .f32⟩ : BufTy).Contents (Elt F) → (⟨S2000000x4x4, .f32⟩ : BufTy).Contents (Elt F) → (⟨S2000000x4x4, .f32⟩ : BufTy).Contents (Elt F)),
    unary main_cst_0 main_v10 (broadcastInDim S1x4x4 ![1, 2] bcast_S4x4_S1x4x4_1_2 : (⟨S4x4, .f32⟩ : BufTy).Contents (Elt F) → (⟨S1x4x4, .f32⟩ : BufTy).Contents (Elt F)),
    unary main_v10 main_v11 (broadcastInDim S2000000x4x4 ![0, 1, 2] bcast_S1x4x4_S2000000x4x4_0_1_2 : (⟨S1x4x4, .f32⟩ : BufTy).Contents (Elt F) → (⟨S2000000x4x4, .f32⟩ : BufTy).Contents (Elt F)),
    unary main_v5 main_v12 (broadcastInDim S2000000x4x4 ![0, 1, 2] bcast_S2000000x1x1_S2000000x4x4_0_1_2 : (⟨S2000000x1x1, .f32⟩ : BufTy).Contents (Elt F) → (⟨S2000000x4x4, .f32⟩ : BufTy).Contents (Elt F)),
    binary main_v11 main_v12 main_v13 (mulf : (⟨S2000000x4x4, .f32⟩ : BufTy).Contents (Elt F) → (⟨S2000000x4x4, .f32⟩ : BufTy).Contents (Elt F) → (⟨S2000000x4x4, .f32⟩ : BufTy).Contents (Elt F)),
    binary main_v9 main_v13 main_v14 (addf : (⟨S2000000x4x4, .f32⟩ : BufTy).Contents (Elt F) → (⟨S2000000x4x4, .f32⟩ : BufTy).Contents (Elt F) → (⟨S2000000x4x4, .f32⟩ : BufTy).Contents (Elt F)),
    unary main_cst_1 main_v15 (broadcastInDim S1x4x4 ![1, 2] bcast_S4x4_S1x4x4_1_2 : (⟨S4x4, .f32⟩ : BufTy).Contents (Elt F) → (⟨S1x4x4, .f32⟩ : BufTy).Contents (Elt F)),
    unary main_v15 main_v16 (broadcastInDim S2000000x4x4 ![0, 1, 2] bcast_S1x4x4_S2000000x4x4_0_1_2 : (⟨S1x4x4, .f32⟩ : BufTy).Contents (Elt F) → (⟨S2000000x4x4, .f32⟩ : BufTy).Contents (Elt F)),
    binary main_v14 main_v16 main_v17 (addf : (⟨S2000000x4x4, .f32⟩ : BufTy).Contents (Elt F) → (⟨S2000000x4x4, .f32⟩ : BufTy).Contents (Elt F) → (⟨S2000000x4x4, .f32⟩ : BufTy).Contents (Elt F)),
    binary main_v17 main_cst_2 main_v18 ((fun l r => Host.dotGeneral dot_S2000000x4x4_S4x4_S2000000x4x4_2_0_01_1_n_n none l r) : (⟨S2000000x4x4, .f32⟩ : BufTy).Contents (Elt F) → (⟨S4x4, .f32⟩ : BufTy).Contents (Elt F) → (⟨S2000000x4x4, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., reshape_bufs_sub ..,
   unary_bufs_sub .., unary_bufs_sub .., reshape_bufs_sub .., unary_bufs_sub .., unary_bufs_sub .., unary_bufs_sub ..,
   unary_bufs_sub .., binary_bufs_sub .., unary_bufs_sub .., unary_bufs_sub .., unary_bufs_sub .., binary_bufs_sub ..,
   binary_bufs_sub .., unary_bufs_sub .., unary_bufs_sub .., binary_bufs_sub .., binary_bufs_sub ..⟩

/-- A constant 4×4 matrix repeated for every angle. -/
abbrev tile (w : FVec F S4x4 .f32) : FVec F S2000000x4x4 .f32 :=
  broadcastInDim S2000000x4x4 ![0, 1, 2] bcast_S1x4x4_S2000000x4x4_0_1_2 (broadcastInDim S1x4x4 ![1, 2] bcast_S4x4_S1x4x4_1_2 w)

/-- A column of two million values, each repeated over the sixteen entries of its matrix. -/
abbrev spread (v : FVec F S2000000x1 .f32) : FVec F S2000000x4x4 .f32 :=
  broadcastInDim S2000000x4x4 ![0, 1, 2] bcast_S2000000x1x1_S2000000x4x4_0_1_2
    (broadcastInDim S2000000x1x1 ![0] bcast_S2000000_S2000000x1x1_0 (shapeCast _ v shapeCasts_S2000000x1_S2000000))

/-- The operations composed: `(C · cos x + S · sin x + K) · R`, contracted over the shared axis. -/
def refTerm (x : FVec F S2000000x1 .f32) : FVec F S2000000x4x4 .f32 :=
  Host.dotGeneral dot_S2000000x4x4_S4x4_S2000000x4x4_2_0_01_1_n_n none
    (addf (addf (mulf (tile cstC) (spread (Host.cos x))) (mulf (tile cstS) (spread (Host.sin x)))) (tile cstK))
    cstR

/-- On every device, for any float values, from any memory with zero counters: every weakly fair execution of the
    program terminates with the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (by after_results; rfl),
      (h c main_arg0).trans (by after_results)⟩)
    (run_seq scopedRefs_eq scopedSems_eq defs main (fun _ => ops) main_eq (fun _ => ops_sub) m ρ)

end Run

section AtIndex

variable {F : FTy → Type} [FloatOps F]

/-- A constant matrix repeated for every angle, read at `(b, i, c)`, is the matrix at `(i, c)`. -/
theorem tile_apply (w : FVec F S4x4 .f32) (b : Fin 2000000) (i c : Fin 4) : tile w (ix3 b i c) = w (ix2 i c) := by
  refine (broadcastInDim_apply _ _ _ (ix3 b i c) (ix3 (0 : Fin 1) i c) ?_).trans ?_
  · intro a; match a with | ⟨0, _⟩ => rfl | ⟨1, _⟩ => rfl | ⟨2, _⟩ => rfl
  · refine broadcastInDim_apply _ _ _ (ix3 (0 : Fin 1) i c) (ix2 i c) ?_
    intro a; match a with | ⟨0, _⟩ => rfl | ⟨1, _⟩ => rfl

/-- A column repeated over the sixteen entries of each matrix, read at `(b, i, c)`, is the column at `b`. -/
theorem spread_apply (v : FVec F S2000000x1 .f32) (b : Fin 2000000) (i c : Fin 4) :
    spread v (ix3 b i c) = v (ix2 b (0 : Fin 1)) := by
  refine (broadcastInDim_apply _ _ _ (ix3 b i c) (ix3 b (0 : Fin 1) (0 : Fin 1)) ?_).trans ?_
  · intro a; match a with | ⟨0, _⟩ => rfl | ⟨1, _⟩ => rfl | ⟨2, _⟩ => rfl
  · refine (broadcastInDim_apply _ _ _ (ix3 b (0 : Fin 1) (0 : Fin 1)) (ix1 b) ?_).trans ?_
    · intro a; match a with | ⟨0, _⟩ => rfl
    · refine shapeCast_apply v _ (ix1 b) (ix2 b (0 : Fin 1)) ?_
      rw [Shape.rowMajor_val_two, Shape.rowMajor_val_one]
      show b.val * 1 + 0 = b.val
      omega

end AtIndex

section Tables

/-- The row-major position of `(i, j)` in a 4×4 matrix is `4·i + j`. -/
theorem rowMajor_ix2 (i j : Fin 4) : S4x4.rowMajor (ix2 i j) = Cert.Spec.q i j := by
  apply Fin.ext
  rw [Shape.rowMajor_val_two]
  show i.val * 4 + j.val = 4 * i.val + j.val
  omega

/-- The program's four tables are the specification's, word for word. -/
theorem lit0_eq (k : Fin 16) : lit0 k = Cert.Spec.cosW k := by fin_cases k <;> rfl
theorem lit1_eq (k : Fin 16) : lit1 k = Cert.Spec.sinW k := by fin_cases k <;> rfl
theorem lit2_eq (k : Fin 16) : lit2 k = Cert.Spec.oneW k := by fin_cases k <;> rfl
theorem lit3_eq (k : Fin 16) : lit3 k = Cert.Spec.rightW k := by fin_cases k <;> rfl

end Tables

section Contraction

local notation "D" => dot_S2000000x4x4_S4x4_S2000000x4x4_2_0_01_1_n_n

/-- The contraction index of the product is one coordinate in `Fin 4`. -/
abbrev contrE : (D).contr.Idx ≃ Fin 4 := contrEquiv1 (D) 4 rfl rfl

/-- At the result's index `(b, i, c)` and contraction position `n` the left operand is read at `(b, i, n)` … -/
theorem lhsIdx_eq (b : Fin 2000000) (i c n : Fin 4) :
    (D).lhsIdx (ix3 b i c) (contrE.symm n) = ix3 b i n := by
  funext a
  apply Fin.ext
  match a with
  | ⟨0, _⟩ => rfl
  | ⟨1, _⟩ => rfl
  | ⟨2, _⟩ =>
    refine ((D).lhsIdx_val_of_single (cl := (2 : Fin 3)) rfl (ix3 b i c) (contrE.symm n)).trans ?_
    exact contrEquiv1_symm_val (D) 4 rfl rfl n

/-- … and the right operand at `(n, c)`. -/
theorem rhsIdx_eq (b : Fin 2000000) (i c n : Fin 4) :
    (D).rhsIdx (ix3 b i c) (contrE.symm n) = ix2 n c := by
  funext a
  apply Fin.ext
  match a with
  | ⟨0, _⟩ =>
    refine ((D).rhsIdx_val_of_single (cr := (0 : Fin 2)) rfl (ix3 b i c) (contrE.symm n)).trans ?_
    exact contrEquiv1_symm_val (D) 4 rfl rfl n
  | ⟨1, _⟩ => rfl

end Contraction

section Value

local notation "D" => dot_S2000000x4x4_S4x4_S2000000x4x4_2_0_01_1_n_n

/-- At the extended reals the reference's term is the specification: at `(b, i, c)` the contraction is the sum over
    `j` of `(C i j · cos x_b + S i j · sin x_b + K i j) · R j c`, the product `T(x_b) · R` entry by entry. -/
theorem refTerm_eq (x : FVec Ideal S2000000x1 .f32) : refTerm (F := Ideal) x = Cert.Spec.G x := by
  funext j
  obtain ⟨b, i, c, rfl⟩ : ∃ (b : Fin 2000000) (i c : Fin 4), j = ix3 b i c := ⟨j 0, j 1, j 2, eq_ix3 j⟩
  rw [Cert.Spec.G_apply, ← Cert.Spec.prodEntry_eq_entry]
  unfold refTerm
  refine (Ideal.dotGeneral_apply (D) none .single _ _ (ix3 b i c)).trans ?_
  refine (Equiv.sum_comp contrE.symm _).symm.trans ?_
  unfold Cert.Spec.prodEntry
  refine Finset.sum_congr rfl fun n _ => ?_
  rw [lhsIdx_eq, rhsIdx_eq, addf_apply, addf_apply, mulf_apply, mulf_apply, tile_apply, tile_apply, tile_apply,
    spread_apply, spread_apply]
  show (Ideal.ofBits .f32 (lit0 (S4x4.rowMajor (ix2 i n))) * Ideal.cos (x (ix2 b (0 : Fin 1)))
        + Ideal.ofBits .f32 (lit1 (S4x4.rowMajor (ix2 i n))) * Ideal.sin (x (ix2 b (0 : Fin 1)))
        + Ideal.ofBits .f32 (lit2 (S4x4.rowMajor (ix2 i n)))) * Ideal.ofBits .f32 (lit3 (S4x4.rowMajor (ix2 n c))) = _
  rw [rowMajor_ix2, rowMajor_ix2, lit0_eq, lit1_eq, lit2_eq, lit3_eq]

end Value

section Claim

/-- At the extended reals: every weakly fair execution of the reference terminates with the result buffer holding the
    two million matrices `T(x_b) · R` of the specification, and the argument unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = Cert.Spec.G (m ((c.tc : Thread nD τ).loc main_arg0))
      ∧ r.2.mem ((c.tc : Thread nD τ).loc main_arg0) = m ((c.tc : Thread nD τ).loc main_arg0) :=
  (θ_run _ _ _).mono (fun _ h c => ⟨(h c).1.trans (refTerm_eq _), (h c).2⟩) (run (F := Ideal) m ρ)

end Claim

end Cert.ReferenceIdeal.RefValue

end
-- ==== Proof.lean ====
/-
  The five claims, assembled.

  The three frames: each program runs to the end, faults nowhere and leaves the column of angles unchanged — for the two
  kernel programs from the run of the pipeline over its twenty grid points (the body's triple at every point, the last
  block's overhang included), for the reference from its run as a sequence of host operations.
  The idealized kernel is the kernel's own text read over the extended reals: no operation was rewritten, so there is
  nothing to preserve.
  The value claim: at the ideal instance both programs end with the two million matrices `T(x_b) · R` — the kernel
  as the linear form `cos x · U + sin x · V + W` written block by block and relabelled, the reference as the product summed
  over the contracted index — and the two are one function of the angles (`Cert.Spec.G`), by the row-by-row identity of
  the sparse rotation matrix against `R`.
-/
import proofs.«151942_j3032246911418_2_alg».proof.Defs
import proofs.«151942_j3032246911418_2_alg».proof.Proof.Gen.Kernel
import proofs.«151942_j3032246911418_2_alg».proof.Proof.Gen.KernelIdeal
import proofs.«151942_j3032246911418_2_alg».proof.Proof.Gen.ReferenceIdeal
import proofs.«151942_j3032246911418_2_alg».proof.Proof.Gen.Pre_finite_inputs
import proofs.«151942_j3032246911418_2_alg».proof.Proof.BodyBits
import proofs.«151942_j3032246911418_2_alg».proof.Proof.BodyIdeal
import proofs.«151942_j3032246911418_2_alg».proof.Proof.ValueIdeal
import proofs.«151942_j3032246911418_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves the angles unchanged. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- No operation was rewritten in passing to the extended reals. -/
theorem preserves : Cert.preserves_Kernel_KernelIdeal := trivial

/-- From memories that agree on the angles both programs end with `Cert.Spec.G` of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
